-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S64x8 : Shape := ⟨2, ![64, 8]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S64x8 : S_.BroadcastsInDim S64x8 (![] : Fin 0 → Fin S64x8.rank)
  reducesTo_S64x8_S_d0_1 : S64x8.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x64 .f32) (main_arg6 : FVec F S32x64 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x8 .f32) (main_arg1 : IVec S2x1600000 32) (main_arg2 : FVec F S64x8 .f32) (main_arg3 : FVec F S64x8 .f32) (main_arg4 : FVec F S64 .f32) (main_arg5 : FVec F S32x64 .f32) (main_arg6 : FVec F S32x64 .f32) (main_arg7 : FVec F S32 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S64x8 .f32 := Host.absf main_arg2
  let main_cst_0 : FVec F S_ .f32 := constant S_ .f32 0x7F800000#32
  let main_v5 : FVec F S64x8 .f32 := broadcastInDim S64x8 ![] bcast_S_S64x8 main_cst_0
  let main_v6 : IVec S64x8 1 := cmpf .olt main_v4 main_v5
  let main_c_1 : IVec S_ 1 := constantI S_ 1 1#1
  let main_v7 : IVec S_ 1 := (fun x v => Host.reduce IntOp.andi x v reducesTo_S64x8_S_d0_1 h_S_) main_v6 main_c_1
  let main_v8 : IVec S_ 1 := andi main_v3 main_v7
  let main_v9 : FVec F S64x8 .f32 := Host.absf main_arg3
  let main_cst_2 : FVec F S_ .f32 := constant S_ .f32 0x7F800000#32
  let main_v10 : FVec F S64x8 .f32 := broadcastInDim S64x8 ![] bcast_S_S64x8 main_cst_2
  let main_v11 : IVec S64x8 1 := cmpf .olt main_v9 main_v10
  let main_c_3 : IVec S_ 1 := constantI S_ 1 1#1
  let main_v12 : IVec S_ 1 := (fun x v => Host.reduce IntOp.andi x v reducesTo_S64x8_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x8 : Shape := ⟨2, ![100000, 8]⟩
abbrev S2x1600000 : Shape := ⟨2, ![2, 1600000]⟩
abbrev S64x8 : Shape := ⟨2, ![64, 8]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x9 : Shape := ⟨2, ![100000, 9]⟩
abbrev S1600000x1 : Shape := ⟨2, ![1600000, 1]⟩
abbrev S1600000x9 : Shape := ⟨2, ![1600000, 9]⟩
abbrev S100000 : Shape := ⟨1, ![100000]⟩
abbrev S8x64 : Shape := ⟨2, ![8, 64]⟩
abbrev S1x64 : Shape := ⟨2, ![1, 64]⟩
abbrev S64x32 : Shape := ⟨2, ![64, 32]⟩
abbrev S1x32 : Shape := ⟨2, ![1, 32]⟩
abbrev S100000x32 : Shape := ⟨2, ![100000, 32]⟩
abbrev S2000x8 : Shape := ⟨2, ![2000, 8]⟩
abbrev S2000x1 : Shape := ⟨2, ![2000, 1]⟩
abbrev S2000x32 : Shape := ⟨2, ![2000, 32]⟩
abbrev S2000x64 : Shape := ⟨2, ![2000, 64]⟩
abbrev S1600000x32 : Shape := ⟨2, ![1600000, 32]⟩

abbrev nBuf : Space → Nat
  | .hbm => 60
  | .vmem => 24
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S64x8, .f32⟩
  | .hbm, ⟨3, _⟩ => ⟨S64x8, .f32⟩
  | .hbm, ⟨4, _⟩ => ⟨S64, .f32⟩
  | .hbm, ⟨5, _⟩ => ⟨S32x64, .f32⟩
  | .hbm, ⟨6, _⟩ => ⟨S32x64, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000x1, .f32⟩
  | .hbm, ⟨14, _⟩ => ⟨S100000x9, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x9, .f32⟩
  | .hbm, ⟨24, _⟩ => ⟨S_, .f32⟩
  | .hbm, ⟨25, _⟩ => ⟨S100000x9, .f32⟩
  | .hbm, ⟨26, _⟩ => ⟨S1600000x1, .i32⟩
  | .hbm, ⟨27, _⟩ => ⟨S100000x9, .f32⟩
  | .hbm, ⟨28, _⟩ => ⟨S100000x8, .f32⟩
  | .hbm, ⟨29, _⟩ => ⟨S100000x1, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S8x64, .f32⟩
  | .hbm, ⟨39, _⟩ => ⟨S8x64, .f32⟩
  | .hbm, ⟨40, _⟩ => ⟨S1x64, .f32⟩
  | .hbm, ⟨41, _⟩ => ⟨S64x32, .f32⟩
  | .hbm, ⟨42, _⟩ => ⟨S64x32, .f32⟩
  | .hbm, ⟨43, _⟩ => ⟨S1x32, .f32⟩
  | .hbm, ⟨44, _⟩ => ⟨S100000x32, .f32⟩
  | .hbm, ⟨45, _⟩ => ⟨S100000x32, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x32, .f32⟩
  | .hbm, ⟨55, _⟩ => ⟨S_, .f32⟩
  | .hbm, ⟨56, _⟩ => ⟨S100000x32, .f32⟩
  | .hbm, ⟨57, _⟩ => ⟨S1600000x1, .i32⟩
  | .hbm, ⟨58, _⟩ => ⟨S100000x32, .f32⟩
  | .hbm, ⟨59, _⟩ => ⟨S100000x32, .f32⟩
  | .local _ .vmem, ⟨0, _⟩ => ⟨S2000x8, .f32⟩
  | .local _ .vmem, ⟨1, _⟩ => ⟨S2000x8, .f32⟩
  | .local _ .vmem, ⟨2, _⟩ => ⟨S2000x8, .f32⟩
  | .local _ .vmem, ⟨3, _⟩ => ⟨S2000x8, .f32⟩
  | .local _ .vmem, ⟨4, _⟩ => ⟨S2000x1, .f32⟩
  | .local _ .vmem, ⟨5, _⟩ => ⟨S2000x1, .f32⟩
  | .local _ .vmem, ⟨6, _⟩ => ⟨S8x64, .f32⟩
  | .local _ .vmem, ⟨7, _⟩ => ⟨S8x64, .f32⟩
  | .local _ .vmem, ⟨8, _⟩ => ⟨S1x64, .f32⟩
  | .local _ .vmem, ⟨9, _⟩ => ⟨S64x32, .f32⟩
  | .local _ .vmem, ⟨10, _⟩ => ⟨S64x32, .f32⟩
  | .local _ .vmem, ⟨11, _⟩ => ⟨S1x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S2000x32, .f32⟩
  | .local _ .vmem, ⟨18, _⟩ => ⟨S2000x1, .f32⟩
  | .local _ .vmem, ⟨19, _⟩ => ⟨S2000x1, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x1 : S_.BroadcastsInDim S100000x1 (![] : Fin 0 → Fin S100000x1.rank)
  concatenates_S100000x8_S100000x1_S100000x9_d1 : Shape.Concatenates [S100000x8, S100000x1] S100000x9 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x9 : S_.BroadcastsInDim S100000x9 (![] : Fin 0 → Fin S100000x9.rank)
  slices_S100000x9_S100000x8_0_0 : S100000x9.Slices ![0, 0] S100000x8
  slices_S100000x9_S100000x1_0_8 : S100000x9.Slices ![0, 8] S100000x1
  shapeCasts_S100000x1_S100000 : S100000x1.ShapeCasts S100000
  bcast_S_S100000 : S_.BroadcastsInDim S100000 (![] : Fin 0 → Fin S100000.rank)
  shapeCasts_S100000_S100000x1 : S100000.ShapeCasts S100000x1
  transposes_S64x8_S8x64_1_0 : S64x8.Transposes [1, 0] S8x64
  shapeCasts_S64_S1x64 : S64.ShapeCasts S1x64
  transposes_S32x64_S64x32_1_0 : S32x64.Transposes [1, 0] S64x32
  shapeCasts_S32_S1x32 : S32.ShapeCasts S1x32
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x8 : S2000x1.Broadcasts S2000x8
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  shapeCasts_S2000x32_S2000x32 : S2000x32.ShapeCasts S2000x32
  broadcasts_S2000x1_S2000x32 : S2000x1.Broadcasts S2000x32
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  dot_S2000x8_S8x64_S2000x64_1_0_0_1_n_n_wf : DotDims.WF S2000x8 S8x64 S2000x64 [1] [0] [0] [1] [] []
  dot_S2000x64_S64x32_S2000x32_1_0_0_1_n_n_wf : DotDims.WF S2000x64 S64x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S100000x8.size a
  hwx0_0 : ∀ i : grid0.Coords, EltTy.bits .f32 = 32 ∨ (Rect.block (s := S100000x8) S2000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x8.size a ≤ S100000x8.size a
  hwx0_1 : ∀ i : grid0.Coords, EltTy.bits .f32 = 32 ∨ (Rect.block (s := S100000x8) S2000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .f32 = 32 ∨ (Rect.block (s := S8x64) S8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S8x64.size a
  hwx0_4 : ∀ i : grid0.Coords, EltTy.bits .f32 = 32 ∨ (Rect.block (s := S8x64) S8x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x32.size a ≤ S100000x32.size a
  hwx0_9 : ∀ i : grid0.Coords, EltTy.bits .f32 = 32 ∨ (Rect.block (s := S100000x32) S2000x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x32.size a ≤ S100000x32.size a
  hwx0_10 : ∀ i : grid0.Coords, EltTy.bits .f32 = 32 ∨ (Rect.block (s := S100000x32) S2000x32.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)

variable [Facts₀]

def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def dot_S2000x8_S8x64_S2000x64_1_0_0_1_n_n : DotDims S2000x8 S8x64 S2000x64 where
  lhsContracting := [1]
  rhsContracting := [0]
  lhsNonContracting := [0]
  rhsNonContracting := [1]
  lhsBatch := []
  rhsBatch := []
  wf := dot_S2000x8_S8x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v16) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S8x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S8x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30_0) S2000x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v30_1) S2000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v40) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30_1) S2000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S64x8 : Shape := ⟨2, ![64, 8]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S100000 : Shape := ⟨1, ![100000]⟩
abbrev S100000x1 : Shape := ⟨2, ![100000, 1]⟩
abbrev S8x64 : Shape := ⟨2, ![8, 64]⟩
abbrev S100000x64 : Shape := ⟨2, ![100000, 64]⟩
abbrev S1x64 : Shape := ⟨2, ![1, 64]⟩
abbrev S1600000x64 : Shape := ⟨2, ![1600000, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S64x8, .f32⟩
  | .hbm, ⟨3, _⟩ => ⟨S64x8, .f32⟩
  | .hbm, ⟨4, _⟩ => ⟨S64, .f32⟩
  | .hbm, ⟨5, _⟩ => ⟨S32x64, .f32⟩
  | .hbm, ⟨6, _⟩ => ⟨S32x64, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x8, .f32⟩
  | .hbm, ⟨21, _⟩ => ⟨S_, .f32⟩
  | .hbm, ⟨22, _⟩ => ⟨S100000x8, .f32⟩
  | .hbm, ⟨23, _⟩ => ⟨S1600000x1, .i32⟩
  | .hbm, ⟨24, _⟩ => ⟨S100000x8, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x8, .f32⟩
  | .hbm, ⟨36, _⟩ => ⟨S100000x8, .f32⟩
  | .hbm, ⟨37, _⟩ => ⟨S8x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S8x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x32, .f32⟩
  | .hbm, ⟨74, _⟩ => ⟨S100000x32, .f32⟩
  | .hbm, ⟨75, _⟩ => ⟨S1x32, .f32⟩
  | .hbm, ⟨76, _⟩ => ⟨S100000x32, .f32⟩
  | .hbm, ⟨77, _⟩ => ⟨S100000x32, .f32⟩
  | .hbm, ⟨78, _⟩ => ⟨S64x32, .f32⟩
  | .hbm, ⟨79, _⟩ => ⟨S100000x32, .f32⟩
  | .hbm, ⟨80, _⟩ => ⟨S100000x32, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  transposes_S64x8_S8x64_1_0 : S64x8.Transposes [1, 0] S8x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  scatter_S100000_S1600000x1_S1600000_n_0_0_1_wf : ScatterDims.WF S100000 S1600000x1 S1600000 [] [0] [0] 1
  dot_S100000x8_S8x64_S100000x64_1_0_0_1_n_n_wf : DotDims.WF S100000x8 S8x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.SageSpec.lean ====
/-
  Two-layer mean aggregation on a directed graph, as two arrangements of one function.

  A graph is given by, for each node `i`, the finite set `In i` of edges that land on `i`, and for each edge `e`
  the node `r e` it leaves from.  With `d i = max (number of edges landing on i) 1`, one layer sends node features
  `x` to  `(mean over incoming edges of x at the edge's source) · Wlᵀ + b + x · Wrᵀ`, and the network is two such
  layers with `max · 0` between them.

  * `outK` scales a sum by the reciprocal `1 / d i`, and in the second layer FIRST projects the hidden features by
    `W2l` and THEN sums over the incoming edges;
  * `outR` divides a sum by `d i`, and in the second layer first sums the hidden features over the incoming edges
    and then projects.

  Everything is on the extended reals; the quotient is `Ideal.div`.  Nothing here depends on a program.
-/
import Idealize.ShloMosaic.PureOps.Ideal

noncomputable section

open scoped BigOperators

namespace Cert.Sage

open Idealize.ShloMosaic

variable {ι ε κ₁ κ₂ κ₃ : Type} [Fintype κ₁] [Fintype κ₂] [Fintype κ₃]

/-- The number of edges landing on node `i`, floored at one. -/
def deg (In : ι → Finset ε) (i : ι) : EReal := max (∑ _e ∈ In i, (1 : EReal)) 1

/-! ## Reciprocal first, projection before aggregation -/

/-- Layer one's neighbour mean: the sum over incoming edges times the reciprocal of the degree. -/
def meanK (In : ι → Finset ε) (r : ε → ι) (x : ι → κ₁ → EReal) (i : ι) (k : κ₁) : EReal :=
  (∑ e ∈ In i, x (r e) k) * Ideal.div 1 (deg In i)

/-- The hidden features: neighbour part plus self part plus bias, clipped below at zero. -/
def hidK (In : ι → Finset ε) (r : ε → ι) (x : ι → κ₁ → EReal) (W1l W1r : κ₂ → κ₁ → EReal) (b1 : κ₂ → EReal)
    (i : ι) (q : κ₂) : EReal :=
  max ((∑ k, meanK In r x i k * W1l q k) + (∑ k, x i k * W1r q k) + b1 q) 0

/-- Layer two with the neighbour projection taken edge by edge, before the sum over incoming edges. -/
def outK (In : ι → Finset ε) (r : ε → ι) (x : ι → κ₁ → EReal) (W1l W1r : κ₂ → κ₁ → EReal) (b1 : κ₂ → EReal)
    (W2l W2r : κ₃ → κ₂ → EReal) (b2 : κ₃ → EReal) (i : ι) (j : κ₃) : EReal :=
  (∑ e ∈ In i, ∑ q, hidK In r x W1l W1r b1 (r e) q * W2l j q) * Ideal.div 1 (deg In i)
    + ((∑ q, hidK In r x W1l W1r b1 i q * W2r j q) + b2 j)

/-! ## Quotient, aggregation before projection -/

/-- Layer one's neighbour mean: the sum over incoming edges divided by the degree. -/
def meanR (In : ι → Finset ε) (r : ε → ι) (x : ι → κ₁ → EReal) (i : ι) (k : κ₁) : EReal :=
  Ideal.div (∑ e ∈ In i, x (r e) k) (deg In i)

/-- The hidden features: neighbour part plus bias plus self part, clipped below at zero. -/
def hidR (In : ι → Finset ε) (r : ε → ι) (x : ι → κ₁ → EReal) (W1l W1r : κ₂ → κ₁ → EReal) (b1 : κ₂ → EReal)
    (i : ι) (q : κ₂) : EReal :=
  max ((∑ k, meanR In r x i k * W1l q k) + b1 q + (∑ k, x i k * W1r q k)) 0

/-- Layer two with the hidden features averaged over incoming edges first, then projected. -/
def outR (In : ι → Finset ε) (r : ε → ι) (x : ι → κ₁ → EReal) (W1l W1r : κ₂ → κ₁ → EReal) (b1 : κ₂ → EReal)
    (W2l W2r : κ₃ → κ₂ → EReal) (b2 : κ₃ → EReal) (i : ι) (j : κ₃) : EReal :=
  (∑ q, Ideal.div (∑ e ∈ In i, hidR In r x W1l W1r b1 (r e) q) (deg In i) * W2l j q) + b2 j
    + (∑ q, hidR In r x W1l W1r b1 i q * W2r j q)

end Cert.Sage

end
-- ==== Proof.SageLaw.lean ====
/-
  The two arrangements of the two-layer mean-aggregation network agree on real-valued inputs.

  The degree is a real number at least one, so dividing by it is multiplying by a real reciprocal; this makes
  the two neighbour means equal for arbitrary features, hence the two hidden layers equal (the remaining
  difference is the order of a three-term sum).  On real inputs the hidden features are real, and for real
  numbers the product distributes over the finite sums, which lets the projection and the aggregation of the
  second layer change places.
-/
import proofs.«165062_j69286412419258_2_alg».proof.Proof.SageSpec

noncomputable section

open scoped BigOperators

namespace Cert.Sage

open Idealize.ShloMosaic

variable {ι ε κ₁ κ₂ κ₃ : Type} [Fintype κ₁] [Fintype κ₂] [Fintype κ₃]

/-! ## Coercion lemmas -/

/-- The coercion of reals into the extended reals commutes with finite sums. -/
theorem coe_finset_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The coercion of reals into the extended reals commutes with the binary maximum. -/
theorem coe_max (a b : ℝ) : ((max a b : ℝ) : EReal) = max (a : EReal) (b : EReal) :=
  EReal.coe_strictMono.monotone.map_max

/-! ## The degree -/

/-- The real degree: the number of incoming edges, floored at one. -/
def degℝ (In : ι → Finset ε) (i : ι) : ℝ := max ((In i).card : ℝ) 1

theorem degℝ_ne_zero (In : ι → Finset ε) (i : ι) : degℝ In i ≠ 0 := by
  have h : (1 : ℝ) ≤ degℝ In i := le_max_right _ _
  intro h0
  rw [h0] at h
  exact absurd h (by norm_num)

theorem deg_eq (In : ι → Finset ε) (i : ι) : deg In i = ((degℝ In i : ℝ) : EReal) := by
  unfold deg degℝ
  rw [Finset.sum_const, coe_max, ← EReal.coe_one, ← EReal.coe_nsmul, nsmul_one]

/-- Scaling by the reciprocal of the degree is scaling by a real number. -/
theorem div_one_deg (In : ι → Finset ε) (i : ι) :
    Ideal.div 1 (deg In i) = ((1 / degℝ In i : ℝ) : EReal) := by
  rw [deg_eq, Ideal.div_coe (degℝ_ne_zero In i), one_mul]

/-- Dividing by the degree is scaling by the same real number. -/
theorem div_deg (In : ι → Finset ε) (i : ι) (s : EReal) :
    Ideal.div s (deg In i) = s * ((1 / degℝ In i : ℝ) : EReal) := by
  rw [deg_eq, Ideal.div_coe (degℝ_ne_zero In i)]

/-! ## Layer one -/

theorem meanK_eq_meanR (In : ι → Finset ε) (r : ε → ι) (x : ι → κ₁ → EReal) (i : ι) (k : κ₁) :
    meanK In r x i k = meanR In r x i k := by
  unfold meanK meanR
  rw [div_one_deg, div_deg]

theorem hidK_eq_hidR (In : ι → Finset ε) (r : ε → ι) (x : ι → κ₁ → EReal) (W1l W1r : κ₂ → κ₁ → EReal)
    (b1 : κ₂ → EReal) (i : ι) (q : κ₂) :
    hidK In r x W1l W1r b1 i q = hidR In r x W1l W1r b1 i q := by
  unfold hidK hidR
  simp only [meanK_eq_meanR]
  rw [add_right_comm]

/-! ## Real-valued hidden features -/

/-- The hidden features computed over the reals. -/
def hidℝ (In : ι → Finset ε) (r : ε → ι) (xr : ι → κ₁ → ℝ) (w1l w1r : κ₂ → κ₁ → ℝ) (c1 : κ₂ → ℝ)
    (i : ι) (q : κ₂) : ℝ :=
  max ((∑ k, ((∑ e ∈ In i, xr (r e) k) * (1 / degℝ In i)) * w1l q k) + c1 q + (∑ k, xr i k * w1r q k)) 0

/-- On real inputs the hidden features are the coercion of the real hidden features. -/
theorem hidR_coe (In : ι → Finset ε) (r : ε → ι) (xr : ι → κ₁ → ℝ) (w1l w1r : κ₂ → κ₁ → ℝ) (c1 : κ₂ → ℝ)
    (i : ι) (q : κ₂) :
    hidR In r (fun i k => (xr i k : EReal)) (fun q k => (w1l q k : EReal)) (fun q k => (w1r q k : EReal))
        (fun q => (c1 q : EReal)) i q
      = ((hidℝ In r xr w1l w1r c1 i q : ℝ) : EReal) := by
  unfold hidR hidℝ meanR
  simp only [div_deg]
  rw [coe_max, EReal.coe_zero, EReal.coe_add, EReal.coe_add, coe_finset_sum, coe_finset_sum]
  simp only [EReal.coe_mul, coe_finset_sum]

/-! ## Layer two -/

/-- For real numbers, projecting each edge's hidden features and then aggregating equals aggregating and then
    projecting: the product distributes over both finite sums. -/
theorem layer2_real (S : Finset ε) (r : ε → ι) (h : ι → κ₂ → ℝ) (w : κ₂ → ℝ) (c : ℝ) :
    (∑ e ∈ S, ∑ q, (h (r e) q : EReal) * (w q : EReal)) * (c : EReal)
      = ∑ q, ((∑ e ∈ S, (h (r e) q : EReal)) * (c : EReal)) * (w q : EReal) := by
  have hreal : (∑ e ∈ S, ∑ q, h (r e) q * w q) * c = ∑ q, ((∑ e ∈ S, h (r e) q) * c) * w q := by
    rw [Finset.sum_comm, Finset.sum_mul]
    refine Finset.sum_congr rfl fun q _ => ?_
    rw [← Finset.sum_mul]
    ring
  have hcast := congrArg (fun t : ℝ => (t : EReal)) hreal
  simp only [EReal.coe_mul, coe_finset_sum] at hcast
  exact hcast

/-- The two arrangements agree on real-valued inputs. -/
theorem outK_eq_outR
    (In : ι → Finset ε) (r : ε → ι) (x : ι → κ₁ → EReal) (W1l W1r : κ₂ → κ₁ → EReal) (b1 : κ₂ → EReal)
    (W2l W2r : κ₃ → κ₂ → EReal) (b2 : κ₃ → EReal)
    (hx : ∀ i k, ∃ a : ℝ, x i k = (a : EReal)) (hW1l : ∀ q k, ∃ a : ℝ, W1l q k = (a : EReal))
    (hW1r : ∀ q k, ∃ a : ℝ, W1r q k = (a : EReal)) (hb1 : ∀ q, ∃ a : ℝ, b1 q = (a : EReal))
    (hW2l : ∀ j q, ∃ a : ℝ, W2l j q = (a : EReal)) (hW2r : ∀ j q, ∃ a : ℝ, W2r j q = (a : EReal))
    (hb2 : ∀ j, ∃ a : ℝ, b2 j = (a : EReal)) (i : ι) (j : κ₃) :
    outK In r x W1l W1r b1 W2l W2r b2 i j = outR In r x W1l W1r b1 W2l W2r b2 i j := by
  choose xr hxr using hx
  choose w1l hw1l using hW1l
  choose w1r hw1r using hW1r
  choose c1 hc1 using hb1
  choose w2l hw2l using hW2l
  obtain rfl : x = fun i k => (xr i k : EReal) := funext₂ hxr
  obtain rfl : W1l = fun q k => (w1l q k : EReal) := funext₂ hw1l
  obtain rfl : W1r = fun q k => (w1r q k : EReal) := funext₂ hw1r
  obtain rfl : b1 = fun q => (c1 q : EReal) := funext hc1
  obtain rfl : W2l = fun j q => (w2l j q : EReal) := funext₂ hw2l
  unfold outK outR
  simp only [hidK_eq_hidR, hidR_coe, div_deg, one_mul]
  rw [layer2_real (In i) r (hidℝ In r xr w1l w1r c1) (w2l j) (1 / degℝ In i)]
  rw [add_assoc, add_comm (b2 j)]

end Cert.Sage

end
-- ==== Proof.FiniteInputs.lean ====
/-
  The precondition, decoded. The printed predicate is the conjunction, over the seven float argument arrays A, of
  all(|A| < +inf), and the claim's hypothesis says it evaluates to one at the extended reals. A conjunction of one-bit
  words that is one has each conjunct one; an and-reduction over all axes that is one had a one at every index; and at one
  element, |x| < +inf on the extended reals (|x| is max x (-x), +inf is the top element) rules out x = top and x = bottom,
  so x is a real number.
-/
import proofs.«165062_j69286412419258_2_alg».proof.Defs
import Idealize.ShloMosaic.Lib.ReduceAll
import Idealize.ShloMosaic.Lib.IdealHost
import Idealize.ShloMosaic.Lib.ValueIdx

noncomputable section

namespace Cert.FiniteInputs

open Idealize.ShloMosaic Idealize.ShloMosaic.ValueIdx Idealize.SL.Sem

/-- The rank-0 shape has one index. -/
instance : Subsingleton (⟨0, ![]⟩ : Shape).Idx := ⟨fun a b => funext fun d => d.elim0⟩

/-- The f32 pattern 0x7F800000 denotes the top element of the extended reals. -/
theorem ofBits_inf : Ideal.ofBits .f32 0x7F800000#32 = (⊤ : EReal) := by simp [Ideal.ofBits, Ideal.ieee]

/-- An extended real whose absolute value max x (-x) is below the top element is a real number. -/
theorem real_of_abs_lt_top (x : EReal) (h : max x (-x) < ⊤) : ∃ a : ℝ, x = (a : EReal) := by
  induction x using EReal.rec with
  | bot => simp at h
  | top => simp at h
  | coe r => exact ⟨r, rfl⟩

/-- One element: the comparison |x| < +inf being one makes x a real number. -/
theorem real_of_cmp (x : Ideal .f32)
    (h : FloatOps.cmpf .olt (FloatOps.hostAbsf x) (FloatOps.ofBits (F := Ideal) .f32 0x7F800000#32) = 1#1) :
    ∃ a : ℝ, x = (a : EReal) := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact real_of_abs_lt_top x hlt
  · simp [hlt] at h'

/-- all(|A| < +inf) is one: every entry of A is a real number. Any shape, any reduction over all its axes. -/
theorem real_of_all {s : Shape} {axes : List (Fin s.rank)} (A : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel) (init : IVec (⟨0, ![]⟩ : Shape) 1)
    (j : (⟨0, ![]⟩ : Shape).Idx)
    (e : Host.reduce IntOp.andi
          (cmpf .olt (Host.absf A) (broadcastInDim s ![] bc (constant (⟨0, ![]⟩ : Shape) .f32 0x7F800000#32))) init hr hu j = 1#1)
    (i : s.Idx) : ∃ a : ℝ, A i = (a : EReal) :=
  real_of_cmp (A i) (Host.reduce_andi_all _ init hr hu j e i)

/-- The precondition gives: on every device, every entry of each of the seven float argument arrays is a real number
    (the second argument is the integer edge list, of which the predicate says nothing). -/
theorem real_of_pre [Cert.KernelIdeal.Facts] [Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ a : ℝ, m ((c.tc : Thread Cert.KernelIdeal.nD Cert.KernelIdeal.τ).loc Cert.KernelIdeal.main_arg0) i = (a : EReal))
    ∧ (∀ i, ∃ a : ℝ, m ((c.tc : Thread Cert.KernelIdeal.nD Cert.KernelIdeal.τ).loc Cert.KernelIdeal.main_arg2) i = (a : EReal))
    ∧ (∀ i, ∃ a : ℝ, m ((c.tc : Thread Cert.KernelIdeal.nD Cert.KernelIdeal.τ).loc Cert.KernelIdeal.main_arg3) i = (a : EReal))
    ∧ (∀ i, ∃ a : ℝ, m ((c.tc : Thread Cert.KernelIdeal.nD Cert.KernelIdeal.τ).loc Cert.KernelIdeal.main_arg4) i = (a : EReal))
    ∧ (∀ i, ∃ a : ℝ, m ((c.tc : Thread Cert.KernelIdeal.nD Cert.KernelIdeal.τ).loc Cert.KernelIdeal.main_arg5) i = (a : EReal))
    ∧ (∀ i, ∃ a : ℝ, m ((c.tc : Thread Cert.KernelIdeal.nD Cert.KernelIdeal.τ).loc Cert.KernelIdeal.main_arg6) i = (a : EReal))
    ∧ (∀ i, ∃ a : ℝ, m ((c.tc : Thread Cert.KernelIdeal.nD Cert.KernelIdeal.τ).loc Cert.KernelIdeal.main_arg7) i = (a : EReal)) := by
  have e := congrFun (h c) ix0
  dsimp only [Cert.Pre_finite_inputs.fn, Cert.Pre_finite_inputs.fn_part1, andi] at e
  simp only [IntOp.andi_eq_one] at e
  obtain ⟨⟨⟨⟨⟨⟨e0, e2⟩, e3⟩, e4⟩, e5⟩, e6⟩, e7⟩ := e
  exact ⟨real_of_all _ _ _ _ _ _ e0, real_of_all _ _ _ _ _ _ e2, real_of_all _ _ _ _ _ _ e3, real_of_all _ _ _ _ _ _ e4,
    real_of_all _ _ _ _ _ _ e5, real_of_all _ _ _ _ _ _ e6, real_of_all _ _ _ _ _ _ e7⟩

end Cert.FiniteInputs

end
-- ==== Proof.KRun.lean ====
/-
  The idealized kernel's run with its result named.

  The program is two kernel launches among two stretches of host operations.  Along the run the buffer contents at each
  boundary are a fold from the launch memory: after the first stretch, after the first launch (its arrays at what its
  write-backs leave), after the second stretch, after the second launch.  Every weakly fair execution ends with every
  unscoped buffer at the last boundary's contents; in particular the result buffer, and the argument arrays as launched.
-/
import proofs.«165062_j69286412419258_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the argument arrays as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KRun

end
-- ==== Proof.Graph.lean ====
/-
  The two index arrays of a directed graph given as an edge list `[2, E]` of 32-bit integers, each as ONE whole-array
  function of the list: row 0 holds each edge's source, row 1 its destination.

  * `srcIdx`: row 0, with a negative entry wrapped once by the number of nodes (`s < 0 ? s + N : s`), laid as a column
    `[E, 1]` — the start indices of a row gather;
  * `dstIdx`: row 1 laid as a column `[E, 1]` — the indices of a row scatter.

  Both are kept folded: what matters downstream is only WHICH row an edge's source names once clamped, and WHICH edges
  land on a node, and those are read off these two arrays by the gather's and the scatter's own rules.
-/
import Idealize.ShloMosaic.PureOps.Ideal

noncomputable section

namespace Cert.Graph

open Idealize.ShloMosaic

abbrev SEI : Shape := ⟨2, ![2, 1600000]⟩
abbrev S1E : Shape := ⟨2, ![1, 1600000]⟩
abbrev SE : Shape := ⟨1, ![1600000]⟩
abbrev SE1 : Shape := ⟨2, ![1600000, 1]⟩
abbrev S0 : Shape := ⟨0, ![]⟩

theorem slices0 : SEI.Slices ![0, 0] S1E := by decide
theorem slices1 : SEI.Slices ![1, 0] S1E := by decide
theorem casts : S1E.ShapeCasts SE := by decide
theorem bcast0 : S0.BroadcastsInDim SE (![] : Fin 0 → Fin SE.rank) := by decide
theorem bcastCol : SE.BroadcastsInDim SE1 (![0] : Fin 1 → Fin SE1.rank) := by decide

/-- Row 0 of the edge list as a vector of `E` entries. -/
def srcVec (ei : IVec SEI 32) : IVec SE 32 := shapeCast SE (extractStridedSlice S1E ![0, 0] ei slices0) casts

/-- The sources, a negative one wrapped once by the number of nodes, as a column. -/
def srcIdx (ei : IVec SEI 32) : IVec SE1 32 :=
  broadcastInDim SE1 ![0] bcastCol
    (select (cmpi .slt (srcVec ei) (broadcastInDim SE ![] bcast0 (constantI S0 32 0#32)))
      (addi (srcVec ei) (broadcastInDim SE ![] bcast0 (constantI S0 32 100000#32))) (srcVec ei))

/-- The destinations as a column. -/
def dstIdx (ei : IVec SEI 32) : IVec SE1 32 :=
  broadcastInDim SE1 ![0] bcastCol (shapeCast SE (extractStridedSlice S1E ![1, 0] ei slices1) casts)

end Cert.Graph

end
-- ==== Proof.KHost.lean ====
/-
  The host operations that prepare the first kernel launch's operands, each as ONE whole-array function of the
  program's arguments (the node features `X : [N, 8]`, the edge list `EI : [2, E]`, the weights and biases).

  * `xAug`: the features with a column of ones appended, `[N, 9]`;
  * `aggAug`: for every node the sum, over the edges landing on it, of the source node's row of `xAug` — so its first
    eight columns are the neighbour sums of the features and its ninth the number of incoming edges;
  * `agg1`: those first eight columns; `invCnt`: the reciprocal of the ninth floored at one, as a column `[N, 1]`;
  * the four weights transposed and the two biases laid as one row.
-/
import proofs.«165062_j69286412419258_2_alg».proof.Proof.Gen.KernelIdeal
import proofs.«165062_j69286412419258_2_alg».proof.Proof.Graph

noncomputable section

namespace Cert.KernelIdeal.KHost

open Cert.KernelIdeal Cert.KernelIdeal.Facts₀
open Idealize.ShloMosaic Idealize.SL.Sem

/-- The features with a column of ones appended. -/
def xAug (X : FVec Ideal S100000x8 .f32) : FVec Ideal S100000x9 .f32 :=
  concatenate S100000x9 1 [⟨S100000x8, X⟩, ⟨S100000x1, broadcastInDim S100000x1 ![] bcast_S_S100000x1 (constant (F := Ideal) S_ .f32 0x3F800000#32)⟩]
    concatenates_S100000x8_S100000x1_S100000x9_d1

/-- Per node, the sum over incoming edges of the source's augmented row. -/
def aggAug (X : FVec Ideal S100000x8 .f32) (EI : IVec S2x1600000 32) : FVec Ideal S100000x9 .f32 :=
  Host.scatterAdd scatter_S100000x9_S1600000x1_S1600000x9_1_0_0_1
    (broadcastInDim S100000x9 ![] bcast_S_S100000x9 (constant (F := Ideal) S_ .f32 0x00000000#32))
    (Cert.Graph.dstIdx EI)
    (Host.gather gather_S100000x9_S1600000x1_S1600000x9_1_0_n_n_0_1_19 (xAug X) (Cert.Graph.srcIdx EI))

/-- The neighbour sums of the features. -/
def agg1 (X : FVec Ideal S100000x8 .f32) (EI : IVec S2x1600000 32) : FVec Ideal S100000x8 .f32 :=
  extractStridedSlice S100000x8 ![0, 0] (aggAug X EI) slices_S100000x9_S100000x8_0_0

/-- The reciprocal of the number of incoming edges floored at one, as a column. -/
def invCnt (X : FVec Ideal S100000x8 .f32) (EI : IVec S2x1600000 32) : FVec Ideal S100000x1 .f32 :=
  shapeCast S100000x1
    (Host.divf (broadcastInDim S100000 ![] bcast_S_S100000 (constant (F := Ideal) S_ .f32 0x3F800000#32))
      (maximumf (shapeCast S100000 (extractStridedSlice S100000x1 ![0, 8] (aggAug X EI) slices_S100000x9_S100000x1_0_8) shapeCasts_S100000x1_S100000)
        (broadcastInDim S100000 ![] bcast_S_S100000 (constant (F := Ideal) S_ .f32 0x3F800000#32))))
    shapeCasts_S100000_S100000x1

/-- A layer-one weight `[64, 8]` transposed to `[8, 64]`. -/
def tr1 (W : FVec Ideal S64x8 .f32) : FVec Ideal S8x64 .f32 := transpose S8x64 [1, 0] W transposes_S64x8_S8x64_1_0
/-- A layer-two weight `[32, 64]` transposed to `[64, 32]`. -/
def tr2 (W : FVec Ideal S32x64 .f32) : FVec Ideal S64x32 .f32 := transpose S64x32 [1, 0] W transposes_S32x64_S64x32_1_0
/-- The layer-one bias as one row. -/
def row1 (b : FVec Ideal S64 .f32) : FVec Ideal S1x64 .f32 := shapeCast S1x64 b shapeCasts_S64_S1x64
/-- The layer-two bias as one row. -/
def row2 (b : FVec Ideal S32 .f32) : FVec Ideal S1x32 .f32 := shapeCast S1x32 b shapeCasts_S32_S1x32

end Cert.KernelIdeal.KHost

end
-- ==== Proof.KDefs.lean ====
/-
  The two kernel launches as whole-array functions on the extended reals.

  First launch, row by row: the hidden features of node `i` are
  `hid i q = max ((∑ₖ (A[i,k] · IC[i,0]) · W1[k,q]) + (∑ₖ X[i,k] · W1'[k,q]) + B1[0,q]) 0`
  for neighbour sums `A`, features `X`, the reciprocal-degree column `IC`, two weights `[8, 64]` and a bias row;
  its two results are `proj = hid · W2` and `selfT = hid · W2' + B2` for two weights `[64, 32]` and a bias row.
  Second launch: `comb A IC S = A[i,j] · IC[i,0] + S[i,j]`.
-/
import proofs.«165062_j69286412419258_2_alg».proof.Proof.Gen.KernelIdeal
import Idealize.ShloMosaic.Lib.ValueIdx

noncomputable section

open scoped BigOperators

namespace Cert.KernelIdeal.KDefs

open Cert.KernelIdeal Idealize.ShloMosaic Idealize.ShloMosaic.ValueIdx

/-- Row `i`'s entry of a column `[N, 1]`, named from an index of an `[N, 32]` array. -/
abbrev colAt (i : S100000x32.Idx) : S100000x1.Idx := ix2 (⟨(i 0).val, (i 0).isLt⟩ : Fin 100000) (0 : Fin 1)

/-- The combine step on whole arrays. -/
def comb (A : S100000x32.Idx → EReal) (IC : S100000x1.Idx → EReal) (S : S100000x32.Idx → EReal) : S100000x32.Idx → EReal :=
  fun i => A i * IC (colAt i) + S i

/-- The hidden features of node `i`. -/
def hid (A X : S100000x8.Idx → EReal) (IC : S100000x1.Idx → EReal) (W1 W1' : S8x64.Idx → EReal) (B1 : S1x64.Idx → EReal)
    (i : Fin 100000) (q : Fin 64) : EReal :=
  max ((∑ k : Fin 8, (A (ix2 i k) * IC (ix2 i (0 : Fin 1))) * W1 (ix2 k q)) + (∑ k : Fin 8, X (ix2 i k) * W1' (ix2 k q))
    + B1 (ix2 (0 : Fin 1) q)) 0

/-- The hidden features projected by the neighbour weight of layer two. -/
def proj (A X : S100000x8.Idx → EReal) (IC : S100000x1.Idx → EReal) (W1 W1' : S8x64.Idx → EReal) (B1 : S1x64.Idx → EReal)
    (W2 : S64x32.Idx → EReal) : S100000x32.Idx → EReal :=
  fun i => ∑ q : Fin 64, hid A X IC W1 W1' B1 ⟨(i 0).val, (i 0).isLt⟩ q * W2 (ix2 q (⟨(i 1).val, (i 1).isLt⟩ : Fin 32))

/-- The hidden features projected by the self weight of layer two, plus its bias. -/
def selfT (A X : S100000x8.Idx → EReal) (IC : S100000x1.Idx → EReal) (W1 W1' : S8x64.Idx → EReal) (B1 : S1x64.Idx → EReal)
    (W2' : S64x32.Idx → EReal) (B2 : S1x32.Idx → EReal) : S100000x32.Idx → EReal :=
  fun i => (∑ q : Fin 64, hid A X IC W1 W1' B1 ⟨(i 0).val, (i 0).isLt⟩ q * W2' (ix2 q (⟨(i 1).val, (i 1).isLt⟩ : Fin 32)))
    + B2 (ix2 (0 : Fin 1) (⟨(i 1).val, (i 1).isLt⟩ : Fin 32))

end Cert.KernelIdeal.KDefs

end
-- ==== Proof.KTerm.lean ====
/-
  The idealized kernel's result as ONE whole-array function of the program's arguments: the first launch's projected
  hidden features gathered along the edges' sources and summed onto the edges' destinations, scaled by the
  reciprocal-degree column, plus the first launch's self term.
-/
import proofs.«165062_j69286412419258_2_alg».proof.Proof.KHost
import proofs.«165062_j69286412419258_2_alg».proof.Proof.KDefs

noncomputable section

namespace Cert.KernelIdeal.KTerm

open Cert.KernelIdeal Cert.KernelIdeal.Facts₀ Cert.KernelIdeal.KHost Cert.KernelIdeal.KDefs
open Idealize.ShloMosaic Idealize.SL.Sem

/-- The projected hidden features, aggregated: per node the sum over incoming edges of the source's row. -/
def agg2 (P : FVec Ideal S100000x32 .f32) (EI : IVec S2x1600000 32) : FVec Ideal S100000x32 .f32 :=
  Host.scatterAdd scatter_S100000x32_S1600000x1_S1600000x32_1_0_0_1
    (broadcastInDim S100000x32 ![] bcast_S_S100000x32 (constant (F := Ideal) S_ .f32 0x00000000#32))
    (Cert.Graph.dstIdx EI)
    (Host.gather gather_S100000x32_S1600000x1_S1600000x32_1_0_n_n_0_1_132 P (Cert.Graph.srcIdx EI))

/-- The kernel's result array, from the arguments. -/
def kernelOut (X : FVec Ideal S100000x8 .f32) (EI : IVec S2x1600000 32) (A2 A3 : FVec Ideal S64x8 .f32) (A4 : FVec Ideal S64 .f32)
    (A5 A6 : FVec Ideal S32x64 .f32) (A7 : FVec Ideal S32 .f32) : S100000x32.Idx → EReal :=
  comb (agg2 (proj (agg1 X EI) X (invCnt X EI) (tr1 A2) (tr1 A3) (row1 A4) (tr2 A5)) EI)
    (invCnt X EI)
    (selfT (agg1 X EI) X (invCnt X EI) (tr1 A2) (tr1 A3) (row1 A4) (tr2 A6) (row2 A7))

end Cert.KernelIdeal.KTerm

end
-- ==== Proof.LibCols.lean ====
/-
  Column operations on rank-2 arrays read at an index written by its coordinates, over abstract extents.

  * a slice of columns `[off, off + C')` of an `[R, C]` array reads, at `(r, k)`, the array at `(r, off + k)`;
  * three one-column arrays `[R, 1]` joined along the second axis read, at `(r, i)`, the `i`-th of them at `(r, 0)`;
  * a bias vector of `c` entries cast to one row and repeated down `a` rows reads, at `(p, j)`, the vector at `j`.
-/
import Idealize.ShloMosaic.PureOps.Ideal
import Idealize.ShloMosaic.Lib.ValueIdx
import Idealize.ShloMosaic.Lib.Pipeline.Value

noncomputable section

namespace Cert.LibCols

open Idealize.ShloMosaic Idealize.ShloMosaic.ValueIdx

variable {α : Type}

/-- A slice of the columns from `off` on, all rows kept, at `(r, k)`: the operand at `(r, off + k)`. -/
theorem slice_cols_apply {R C C' : ℕ} (off : ℕ) (x : (⟨2, ![R, C]⟩ : Shape).Idx → α)
    (h : (⟨2, ![R, C]⟩ : Shape).Slices ![0, off] ⟨2, ![R, C']⟩) (r : Fin R) (k : Fin C') (hlt : off + k.val < C) :
    extractStridedSlice ⟨2, ![R, C']⟩ ![0, off] x h (ix2 r k) = x (ix2 r ⟨off + k.val, hlt⟩) :=
  extractStridedSlice_apply ![0, off] x h (ix2 r k) (ix2 r ⟨off + k.val, hlt⟩) (fun a => by
    match a with
    | ⟨0, _⟩ => exact (Nat.zero_add _).symm
    | ⟨1, _⟩ => rfl)

/-- A slice of the first `C'` columns, all rows kept, at `(r, k)`: the operand at `(r, k)`. -/
theorem slice_cols_zero_apply {R C C' : ℕ} (x : (⟨2, ![R, C]⟩ : Shape).Idx → α)
    (h : (⟨2, ![R, C]⟩ : Shape).Slices ![0, 0] ⟨2, ![R, C']⟩) (r : Fin R) (k : Fin C') (hlt : k.val < C) :
    extractStridedSlice ⟨2, ![R, C']⟩ ![0, 0] x h (ix2 r k) = x (ix2 r ⟨k.val, hlt⟩) :=
  extractStridedSlice_apply ![0, 0] x h (ix2 r k) (ix2 r ⟨k.val, hlt⟩) (fun a => by
    match a with
    | ⟨0, _⟩ => exact (Nat.zero_add _).symm
    | ⟨1, _⟩ => exact (Nat.zero_add _).symm)

/-- Three one-column arrays joined along the second axis, at `(r, i)`: the `i`-th array's entry of row `r`. -/
theorem concat3_unit_cols_apply {R : ℕ} (a b c : (⟨2, ![R, 1]⟩ : Shape).Idx → α)
    (h : Shape.Concatenates [(⟨2, ![R, 1]⟩ : Shape), ⟨2, ![R, 1]⟩, ⟨2, ![R, 1]⟩] ⟨2, ![R, 3]⟩ (1 : Fin 2)) (r : Fin R) (i : Fin 3) :
    concatenate ⟨2, ![R, 3]⟩ (1 : Fin 2) [⟨⟨2, ![R, 1]⟩, a⟩, ⟨⟨2, ![R, 1]⟩, b⟩, ⟨⟨2, ![R, 1]⟩, c⟩] h (ix2 r i)
      = (![a, b, c] : Fin 3 → (⟨2, ![R, 1]⟩ : Shape).Idx → α) i (ix2 r (0 : Fin 1)) := by
  have side : ∀ d : Fin 2, d ≠ (1 : Fin 2) → ((ix2 r (0 : Fin 1) : (⟨2, ![R, 1]⟩ : Shape).Idx) d).val = ((ix2 r i : (⟨2, ![R, 3]⟩ : Shape).Idx) d).val := fun d hd => by
    match d with
    | ⟨0, _⟩ => rfl
    | ⟨1, _⟩ => exact absurd rfl hd
  have h' : Shape.Concatenates (([⟨⟨2, ![R, 1]⟩, a⟩, ⟨⟨2, ![R, 1]⟩, b⟩, ⟨⟨2, ![R, 1]⟩, c⟩] : List ((s : Shape) × (s.Idx → α))).map (·.1)) (⟨2, ![R, 3]⟩ : Shape) (1 : Fin 2) := h
  match i with
  | ⟨0, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 0 (by show 0 < 3; omega) ⟨2, ![R, 1]⟩ a rfl rfl 0 rfl (ix2 r (0 : Fin 1)) side rfl
  | ⟨1, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 1 (by show 1 < 3; omega) ⟨2, ![R, 1]⟩ b rfl rfl 1 rfl (ix2 r (0 : Fin 1)) side rfl
  | ⟨2, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 2 (by show 2 < 3; omega) ⟨2, ![R, 1]⟩ c rfl rfl 2 rfl (ix2 r (0 : Fin 1)) side rfl

/-- A vector of `c` entries cast to the one row `[1, c]` and repeated down `a` rows, at `(p, j)`: the vector at `j`. -/
theorem bias_rows_apply {a c : ℕ} (x : (⟨1, ![c]⟩ : Shape).Idx → α) (h : (⟨1, ![c]⟩ : Shape).ShapeCasts ⟨2, ![1, c]⟩)
    (h' : (⟨2, ![1, c]⟩ : Shape).Broadcasts ⟨2, ![a, c]⟩) (p : Fin a) (j : Fin c) :
    broadcastTo ⟨2, ![a, c]⟩ (shapeCast ⟨2, ![1, c]⟩ x h) h' (ix2 p j) = x (ix1 j) :=
  (broadcastTo_apply _ h' (ix2 p j) (ix2 (0 : Fin 1) j) (fun d => match d with
    | ⟨0, _⟩ => by show (0 : ℕ) = if (1 : ℕ) = 1 then 0 else p.val; rw [if_pos rfl]
    | ⟨1, _⟩ => by show j.val = if c = 1 then 0 else j.val; have := j.isLt; split <;> omega)).trans
  (shapeCast_apply x h _ _ (by
    rw [Shape.rowMajor_val_two, Shape.rowMajor_val_one]
    show j.val = (0 : ℕ) * c + j.val
    rw [Nat.zero_mul, Nat.zero_add]))

/-- A column `[a, 1]` repeated across `b` columns, at `(p, k)`: row `p`'s one entry. -/
theorem col_bcast_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibCols

end
-- ==== Proof.K1.lean ====
/-
  The second kernel launch (the combine step), as one whole-array function.

  Each grid point `t` of 50 handles rows `[2000 t, 2000 t + 2000)`: it reads that block of the aggregated projections
  `A : [N, 32]`, of the reciprocal-degree column `IC : [N, 1]` and of the self term `S : [N, 32]`, and writes
  `A[i, j] · IC[i, 0] + S[i, j]`.  The 50 blocks tile the result, so the result array is that function of the three
  arrays as the launch finds them.
-/
import proofs.«165062_j69286412419258_2_alg».proof.Proof.Gen.KernelIdeal.Frame
import proofs.«165062_j69286412419258_2_alg».proof.Proof.LibCols
import proofs.«165062_j69286412419258_2_alg».proof.Proof.KDefs
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.KDefs
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's one stored value at `(p, e)` of its block. -/
theorem pay1_apply (v0 v6 : Vec Ideal S2000x32 .f32) (v2 : Vec Ideal S2000x1 .f32) (p : Fin 2000) (e : Fin 32) :
    k1_pay1 v0 v2 v6 (ix2 p e) = v0 (ix2 p e) * v2 (ix2 p (0 : Fin 1)) + v6 (ix2 p e) := by
  unfold k1_pay1
  show (shapeCast S2000x32 v0 _ (ix2 p e)) * (broadcastTo S2000x32 (shapeCast S2000x1 v2 _) _ (ix2 p e)) + shapeCast S2000x32 v6 _ (ix2 p e) = _
  rw [Cert.LibCols.col_bcast_apply, shapeCast_self, shapeCast_self, shapeCast_self]

/-- The combine step at an index, from the three arrays read where the block's rectangle says. -/
theorem comb_at (A : S100000x32.Idx → EReal) (IC : S100000x1.Idx → EReal) (S : S100000x32.Idx → EReal)
    (i0 : S100000x32.Idx) (i1 : S100000x1.Idx) (i2 i3 : S100000x32.Idx) (h0 : i0 = i3) (h1 : i1 = colAt i3) (h2 : i2 = i3) :
    A i0 * IC i1 + S i2 = comb A IC S i3 := by
  subst h0 h2; rw [h1]; rfl

variable (V : (c : Dev nD) → (b : Ref sig .tc) → Buf (Elt Ideal) ((c : Thread nD τ).loc b))

/-- The printed index maps, decided over the grid: every window's block index is the grid point on the row axis and zero
    on the column axis. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem idx_onto1 : ∀ q : Fin 50, ∃ t : Fin cfg1.N, t.val = q.val :=
  (by decide +kernel : ∀ q : Fin 50, ∃ t : Fin grid1.N, t.val = q.val)

/-- What point `t` writes back is block `t` of the combine step of the three arrays as the launch finds them. -/
theorem flushed1_3_eq (c : Dev nD) (t : Fin cfg1.N) :
    (dat1 V c).flushed 3 t = ((cfg1.win 3).blk t).view.read (Elt Ideal) (comb (V c main_v40) (V c main_v23) (V c main_v30_1)) := by
  show (cfg1.win 3).cut (grid1.coords t) ((dat1 V c).after 3 t) = _
  rw [after1_3]
  unfold out1_3
  rw [View.canon_unit_zero hz]
  simp only [View.ld_unit_zero (S := S2000x32) hz, View.ld_unit_zero (S := S2000x1) hz]
  obtain ⟨e00, e01, e10, e11, e20, e21, e30, e31⟩ := idx_facts1 t
  funext y
  obtain ⟨p, e, rfl⟩ : ∃ (p : Fin 2000) (e : Fin 32), y = ix2 p e := ⟨y 0, y 1, eq_ix2 y⟩
  refine (pay1_apply (iblk1 V c 0 t) (iblk1 V c 2 t) (iblk1 V c 1 t) p e).trans ?_
  have h0 : ((cfg1.win 0).blk t).view.emb (ix2 p e) = ((cfg1.win 3).blk t).view.emb (ix2 p e) := by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 32 + 1 * e.val = win1_3.index t (1 : Fin 2) * 32 + 1 * e.val; omega
  have h2 : ((cfg1.win 2).blk t).view.emb (ix2 p e) = ((cfg1.win 3).blk t).view.emb (ix2 p e) := by
    funext a; apply Fin.ext
    match a with
    | ⟨0, _⟩ => show win1_2.index t (0 : Fin 2) * 2000 + 1 * p.val = win1_3.index t (0 : Fin 2) * 2000 + 1 * p.val; omega
    | ⟨1, _⟩ => show win1_2.index t (1 : Fin 2) * 32 + 1 * e.val = win1_3.index t (1 : Fin 2) * 32 + 1 * e.val; omega
  have h1 : ((cfg1.win 1).blk t).view.emb (ix2 p (0 : Fin 1)) = colAt (((cfg1.win 3).blk t).view.emb (ix2 p e)) := by
    funext a; apply Fin.ext
    match a with
    | ⟨0, _⟩ => show win1_1.index t (0 : Fin 2) * 2000 + 1 * p.val = win1_3.index t (0 : Fin 2) * 2000 + 1 * p.val; omega
    | ⟨1, _⟩ => show win1_1.index t (1 : Fin 2) * 1 + 1 * 0 = 0; omega
  exact comb_at (V c main_v40) (V c main_v23) (V c main_v30_1) _ _ _ _ h0 h1 h2

/-- An index of the result is in point `t`'s block iff each coordinate is in the block's range on its axis. -/
theorem mem_blk1_3 (t : Fin cfg1.N) (i : S100000x32.Idx) :
    i ∈ ((cfg1.win 3).blk t).view.set ↔ ∀ a : Fin 2, win1_3.index t a * S2000x32.size a ≤ (i a).val ∧ (i a).val < win1_3.index t a * S2000x32.size a + S2000x32.size a := by
  show i ∈ ((View.whole main_v41).slice (win1_3.rect t)).set ↔ _
  rw [View.set_slice_whole, Rect.mem_set_unit]
  exact Iff.rfl

/-- The 50 row blocks tile the result: row `r` is in block `r / 2000`. -/
theorem cover1_3_all (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := idx_onto1 ⟨(i 0).val / 2000, by omega⟩
  have ht' : t.val = (i 0).val / 2000 := ht
  obtain ⟨e00, e01, e10, e11, e20, e21, e30, e31⟩ := idx_facts1 t
  refine ⟨t, flush1_3 t, ?_⟩
  rw [mem_blk1_3]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 32 ≤ (i 1).val ∧ (i 1).val < win1_3.index t (1 : Fin 2) * 32 + 32; omega

/-- The result array after the second launch: the combine step of the three arrays as the launch finds them. -/
theorem final1_3 (c : Dev nD) :
    (dat1 V c).arrAt 3 cfg1.N = comb (V c main_v40) (V c main_v23) (V c main_v30_1) :=
  (dat1 V c).arrAt_eq_of_cover 3 _ (fun t _ => flushed1_3_eq V c t) cover1_3_all

end Cert.KernelIdeal.KValue

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.K0.lean ====
/-
  The first kernel launch (the fused two-layer step), as two whole-array functions.

  Each grid point `t` of 50 handles rows `[2000 t, 2000 t + 2000)`: it reads that block of the neighbour sums `A : [N, 8]`,
  of the node features `X : [N, 8]` and of the reciprocal-degree column `IC : [N, 1]`, and the whole of the two first-layer
  weights `W1, W1' : [8, 64]`, the bias row `B1 : [1, 64]`, the two second-layer weights `W2, W2' : [64, 32]` and the bias
  row `B2 : [1, 32]`.  On the extended reals, where a change of float format is the identity and a cast of a shape to itself
  is the identity, the body computes per row `i` the hidden features
  `hid i q = max ((∑ₖ (A[i,k] · IC[i,0]) · W1[k,q]) + (∑ₖ X[i,k] · W1'[k,q]) + B1[0,q]) 0`
  (two matrix products into zero accumulators, added, plus the bias row repeated down the rows, against zero), and writes
  `∑_q hid i q · W2[q,j]` to its first result and `(∑_q hid i q · W2'[q,j]) + B2[0,j]` to its second.  The 50 row blocks
  tile each result, so each result array is that function of the nine arrays as the launch finds them.
-/
import proofs.«165062_j69286412419258_2_alg».proof.Proof.Gen.KernelIdeal.Frame
import proofs.«165062_j69286412419258_2_alg».proof.Proof.LibCols
import proofs.«165062_j69286412419258_2_alg».proof.Proof.LibDot
import proofs.«165062_j69286412419258_2_alg».proof.Proof.KDefs
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KValue0

open Cert.KernelIdeal Cert.KernelIdeal.Gen Cert.KernelIdeal.KDefs
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The two matrix products' dimension numbers: where they send an output index and a contraction index -/

abbrev D1 : DotDims S2000x8 S8x64 S2000x64 := dot_S2000x8_S8x64_S2000x64_1_0_0_1_n_n
abbrev D2 : DotDims S2000x64 S64x32 S2000x32 := dot_S2000x64_S64x32_S2000x32_1_0_0_1_n_n

theorem d1_l0 (i : S2000x64.Idx) (q : D1.contr.Idx) : (D1.lhsIdx i q 0).val = (i 0).val := by
  unfold DotDims.lhsIdx
  rw [dif_neg (show ¬(0 : Fin S2000x8.rank) ∈ D1.lhsBatch by decide), dif_pos (show (0 : Fin S2000x8.rank) ∈ D1.lhsNonContracting by decide)]
  rfl
theorem d1_l1 (i : S2000x64.Idx) (q : D1.contr.Idx) : (D1.lhsIdx i q 1).val = (q ⟨0, by decide⟩).val :=
  D1.lhsIdx_val_of_single rfl i q
theorem d1_r0 (i : S2000x64.Idx) (q : D1.contr.Idx) : (D1.rhsIdx i q 0).val = (q ⟨0, by decide⟩).val :=
  D1.rhsIdx_val_of_single rfl i q
theorem d1_r1 (i : S2000x64.Idx) (q : D1.contr.Idx) : (D1.rhsIdx i q 1).val = (i 1).val := by
  unfold DotDims.rhsIdx
  rw [dif_neg (show ¬(1 : Fin S8x64.rank) ∈ D1.rhsBatch by decide), dif_pos (show (1 : Fin S8x64.rank) ∈ D1.rhsNonContracting by decide)]
  rfl

theorem d2_l0 (i : S2000x32.Idx) (q : D2.contr.Idx) : (D2.lhsIdx i q 0).val = (i 0).val := by
  unfold DotDims.lhsIdx
  rw [dif_neg (show ¬(0 : Fin S2000x64.rank) ∈ D2.lhsBatch by decide), dif_pos (show (0 : Fin S2000x64.rank) ∈ D2.lhsNonContracting by decide)]
  rfl
theorem d2_l1 (i : S2000x32.Idx) (q : D2.contr.Idx) : (D2.lhsIdx i q 1).val = (q ⟨0, by decide⟩).val :=
  D2.lhsIdx_val_of_single rfl i q
theorem d2_r0 (i : S2000x32.Idx) (q : D2.contr.Idx) : (D2.rhsIdx i q 0).val = (q ⟨0, by decide⟩).val :=
  D2.rhsIdx_val_of_single rfl i q
theorem d2_r1 (i : S2000x32.Idx) (q : D2.contr.Idx) : (D2.rhsIdx i q 1).val = (i 1).val := by
  unfold DotDims.rhsIdx
  rw [dif_neg (show ¬(1 : Fin S64x32.rank) ∈ D2.rhsBatch by decide), dif_pos (show (1 : Fin S64x32.rank) ∈ D2.rhsNonContracting by decide)]
  rfl

/-- One row `[1, c]` repeated down `a` rows, at `(p, j)`: the row's entry `j`. -/
theorem row_bcast_apply {α : Type} {a c : ℕ} (v : (⟨2, ![1, c]⟩ : Shape).Idx → α) (h : (⟨2, ![1, c]⟩ : Shape).Broadcasts ⟨2, ![a, c]⟩)
    (p : Fin a) (j : Fin c) : broadcastTo ⟨2, ![a, c]⟩ v h (ix2 p j) = v (ix2 (0 : Fin 1) j) := by
  refine broadcastTo_apply v h (ix2 p j) (ix2 (0 : Fin 1) j) fun ax => ?_
  match ax with
  | ⟨0, _⟩ => show (0 : ℕ) = if (1 : ℕ) = 1 then 0 else p.val; rw [if_pos rfl]
  | ⟨1, _⟩ => show j.val = if c = 1 then 0 else j.val; have := j.isLt; split <;> omega

/-- The hidden features of row `p` of a block, from the blocks of the neighbour sums, the features and the reciprocal-degree
    column, the two first-layer weights and the bias row. -/
def hidB (v0 v7 : Vec Ideal S2000x8 .f32) (v2 : Vec Ideal S2000x1 .f32) (v9 v12 : Vec Ideal S8x64 .f32) (v18 : Vec Ideal S1x64 .f32)
    (p : Fin 2000) (q : Fin 64) : EReal :=
  max ((∑ k : Fin 8, ((v0 (ix2 p k) : EReal) * (v2 (ix2 p (0 : Fin 1)) : EReal)) * (v9 (ix2 k q) : EReal))
      + (∑ k : Fin 8, (v7 (ix2 p k) : EReal) * (v12 (ix2 k q) : EReal)) + (v18 (ix2 (0 : Fin 1) q) : EReal)) 0

/-- The hidden block at `(p, q)`: the two products into zero accumulators, added, plus the bias row, against zero. -/
theorem pay2_apply (v0 v7 : Vec Ideal S2000x8 .f32) (v2 : Vec Ideal S2000x1 .f32) (v9 v12 : Vec Ideal S8x64 .f32) (v18 : Vec Ideal S1x64 .f32)
    (p : Fin 2000) (q : Fin 64) :
    k0_pay2 v0 v2 v7 v9 v12 v18 (ix2 p q) = hidB v0 v7 v2 v9 v12 v18 p q := by
  unfold k0_pay2 hidB
  show max ((FloatOps.matmul (F := Ideal) D1 none _ _ (constant S2000x64 .f32 0x00000000#32) (ix2 p q) : EReal)
          + (FloatOps.matmul (F := Ideal) D1 none _ _ (constant S2000x64 .f32 0x00000000#32) (ix2 p q) : EReal)
          + (broadcastTo S2000x64 (shapeCast S1x64 v18 _) _ (ix2 p q) : EReal)) (Ideal.ofBits .f32 0x00000000#32 : EReal) = _
  rw [Cert.LibDot.matmul_zero_apply D1 rfl rfl d1_l0 d1_l1 d1_r0 d1_r1, Cert.LibDot.matmul_zero_apply D1 rfl rfl d1_l0 d1_l1 d1_r0 d1_r1,
    row_bcast_apply, shapeCast_self, Ideal.ofBits_zero_f32]
  simp only [shapeCast_self]
  refine congrArg (fun x : EReal => max x 0) ?_
  refine congrArg₂ (· + ·) (congrArg₂ (· + ·) (Finset.sum_congr rfl fun k _ => ?_) (Finset.sum_congr rfl fun k _ => ?_)) rfl
  · show ((v0 (ix2 p k) : EReal) * (broadcastTo S2000x8 v2 _ (ix2 p k) : EReal)) * (v9 (ix2 k q) : EReal) = _
    rw [Cert.LibCols.col_bcast_apply]
  · rfl

/-- The first result's block at `(p, e)`: the hidden block times the second-layer neighbour weight. -/
theorem pay3_apply (v0 v7 : Vec Ideal S2000x8 .f32) (v2 : Vec Ideal S2000x1 .f32) (v9 v12 : Vec Ideal S8x64 .f32) (v18 : Vec Ideal S1x64 .f32)
    (v25 : Vec Ideal S64x32 .f32) (p : Fin 2000) (e : Fin 32) :
    k0_pay3 v0 v2 v7 v9 v12 v18 v25 (ix2 p e) = ∑ q : Fin 64, hidB v0 v7 v2 v9 v12 v18 p q * (v25 (ix2 q e) : EReal) := by
  unfold k0_pay3
  show (FloatOps.matmul (F := Ideal) D2 none (k0_pay2 v0 v2 v7 v9 v12 v18) _ (constant S2000x32 .f32 0x00000000#32) (ix2 p e) : EReal) = _
  rw [Cert.LibDot.matmul_zero_apply D2 rfl rfl d2_l0 d2_l1 d2_r0 d2_r1]
  refine Finset.sum_congr rfl fun q _ => ?_
  show (k0_pay2 v0 v2 v7 v9 v12 v18 (ix2 p q) : EReal) * (shapeCast S64x32 v25 _ (ix2 q e) : EReal) = _
  rw [pay2_apply, shapeCast_self]

/-- The second result's block at `(p, e)`: the hidden block times the second-layer self weight, plus the bias row. -/
theorem pay1_apply (v0 v7 : Vec Ideal S2000x8 .f32) (v2 : Vec Ideal S2000x1 .f32) (v9 v12 : Vec Ideal S8x64 .f32) (v18 : Vec Ideal S1x64 .f32)
    (v28 : Vec Ideal S64x32 .f32) (v33 : Vec Ideal S1x32 .f32) (p : Fin 2000) (e : Fin 32) :
    k0_pay1 (k0_pay4 v0 v2 v7 v9 v12 v18 v28) (k0_pay5 v33) (ix2 p e)
      = (∑ q : Fin 64, hidB v0 v7 v2 v9 v12 v18 p q * (v28 (ix2 q e) : EReal)) + (v33 (ix2 (0 : Fin 1) e) : EReal) := by
  unfold k0_pay1 k0_pay4 k0_pay5
  show (FloatOps.matmul (F := Ideal) D2 none (k0_pay2 v0 v2 v7 v9 v12 v18) _ (constant S2000x32 .f32 0x00000000#32) (ix2 p e) : EReal)
      + (broadcastTo S2000x32 (shapeCast S1x32 v33 _) _ (ix2 p e) : EReal) = _
  rw [Cert.LibDot.matmul_zero_apply D2 rfl rfl d2_l0 d2_l1 d2_r0 d2_r1, row_bcast_apply]
  simp only [shapeCast_self]
  refine congrArg₂ (· + ·) (Finset.sum_congr rfl fun q _ => ?_) rfl
  show (k0_pay2 v0 v2 v7 v9 v12 v18 (ix2 p q) : EReal) * (v28 (ix2 q e) : EReal) = _
  rw [pay2_apply]

variable (V : (c : Dev nD) → (b : Ref sig .tc) → Buf (Elt Ideal) ((c : Thread nD τ).loc b))

/-- The printed index maps, decided over the grid: the three row-blocked inputs and the two results sit at block
    `(t, 0)`; the six whole-array inputs at block `(0, 0)`. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Every row block is some point's. -/
theorem idx_onto0 : ∀ q : Fin 50, ∃ t : Fin cfg0.N, t.val = q.val :=
  (by decide +kernel : ∀ q : Fin 50, ∃ t : Fin grid0.N, t.val = q.val)

/-- Row `p` of point `t`'s block is row `2000 t + p` of the array. -/
abbrev row (t : Fin cfg0.N) (p : Fin 2000) : Fin 100000 :=
  ⟨t.val * 2000 + p.val, by have h : t.val < grid0.N := t.isLt; rw [N_0] at h; have := p.isLt; omega⟩

/-! ## Each window's block read at coordinates: the array at the block's offset -/

theorem blk0_0 (c : Dev nD) (t : Fin cfg0.N) (p : Fin 2000) (k : Fin 8) :
    (iblk0 V c 0 t (ix2 p k) : EReal) = (V c main_v16 : S100000x8.Idx → EReal) (ix2 (row t p) k) := by
  obtain ⟨f0, f1, f2, f3, f4, f5, f6, f7, f8, f9, f10⟩ := idx_facts0 t
  obtain ⟨e0, e1⟩ := f0
  show (V c main_v16 : S100000x8.Idx → EReal) (((cfg0.win 0).blk t).view.emb (ix2 p k)) = _
  refine congrArg (V c main_v16 : S100000x8.Idx → EReal) (funext fun a => Fin.ext ?_)
  match a with
  | ⟨0, _⟩ => show win0_0.index t (0 : Fin 2) * 2000 + 1 * p.val = t.val * 2000 + p.val; omega
  | ⟨1, _⟩ => show win0_0.index t (1 : Fin 2) * 8 + 1 * k.val = k.val; omega

theorem blk0_1 (c : Dev nD) (t : Fin cfg0.N) (p : Fin 2000) (k : Fin 8) :
    (iblk0 V c 1 t (ix2 p k) : EReal) = (V c main_arg0 : S100000x8.Idx → EReal) (ix2 (row t p) k) := by
  obtain ⟨f0, f1, f2, f3, f4, f5, f6, f7, f8, f9, f10⟩ := idx_facts0 t
  obtain ⟨e0, e1⟩ := f1
  show (V c main_arg0 : S100000x8.Idx → EReal) (((cfg0.win 1).blk t).view.emb (ix2 p k)) = _
  refine congrArg (V c main_arg0 : S100000x8.Idx → EReal) (funext fun a => Fin.ext ?_)
  match a with
  | ⟨0, _⟩ => show win0_1.index t (0 : Fin 2) * 2000 + 1 * p.val = t.val * 2000 + p.val; omega
  | ⟨1, _⟩ => show win0_1.index t (1 : Fin 2) * 8 + 1 * k.val = k.val; omega

theorem blk0_2 (c : Dev nD) (t : Fin cfg0.N) (p : Fin 2000)  :
    (iblk0 V c 2 t (ix2 p (0 : Fin 1)) : EReal) = (V c main_v23 : S100000x1.Idx → EReal) (ix2 (row t p) (0 : Fin 1)) := by
  obtain ⟨f0, f1, f2, f3, f4, f5, f6, f7, f8, f9, f10⟩ := idx_facts0 t
  obtain ⟨e0, e1⟩ := f2
  show (V c main_v23 : S100000x1.Idx → EReal) (((cfg0.win 2).blk t).view.emb (ix2 p (0 : Fin 1))) = _
  refine congrArg (V c main_v23 : S100000x1.Idx → EReal) (funext fun a => Fin.ext ?_)
  match a with
  | ⟨0, _⟩ => show win0_2.index t (0 : Fin 2) * 2000 + 1 * p.val = t.val * 2000 + p.val; omega
  | ⟨1, _⟩ => show win0_2.index t (1 : Fin 2) * 1 + 1 * 0 = 0; omega

theorem blk0_3 (c : Dev nD) (t : Fin cfg0.N) (k : Fin 8) (q : Fin 64) :
    (iblk0 V c 3 t (ix2 k q) : EReal) = (V c main_v24 : S8x64.Idx → EReal) (ix2 k q) := by
  obtain ⟨f0, f1, f2, f3, f4, f5, f6, f7, f8, f9, f10⟩ := idx_facts0 t
  obtain ⟨e0, e1⟩ := f3
  show (V c main_v24 : S8x64.Idx → EReal) (((cfg0.win 3).blk t).view.emb (ix2 k q)) = _
  refine congrArg (V c main_v24 : S8x64.Idx → EReal) (funext fun a => Fin.ext ?_)
  match a with
  | ⟨0, _⟩ => show win0_3.index t (0 : Fin 2) * 8 + 1 * k.val = k.val; omega
  | ⟨1, _⟩ => show win0_3.index t (1 : Fin 2) * 64 + 1 * q.val = q.val; omega

theorem blk0_4 (c : Dev nD) (t : Fin cfg0.N) (k : Fin 8) (q : Fin 64) :
    (iblk0 V c 4 t (ix2 k q) : EReal) = (V c main_v25 : S8x64.Idx → EReal) (ix2 k q) := by
  obtain ⟨f0, f1, f2, f3, f4, f5, f6, f7, f8, f9, f10⟩ := idx_facts0 t
  obtain ⟨e0, e1⟩ := f4
  show (V c main_v25 : S8x64.Idx → EReal) (((cfg0.win 4).blk t).view.emb (ix2 k q)) = _
  refine congrArg (V c main_v25 : S8x64.Idx → EReal) (funext fun a => Fin.ext ?_)
  match a with
  | ⟨0, _⟩ => show win0_4.index t (0 : Fin 2) * 8 + 1 * k.val = k.val; omega
  | ⟨1, _⟩ => show win0_4.index t (1 : Fin 2) * 64 + 1 * q.val = q.val; omega

theorem blk0_5 (c : Dev nD) (t : Fin cfg0.N)  (q : Fin 64) :
    (iblk0 V c 5 t (ix2 (0 : Fin 1) q) : EReal) = (V c main_v26 : S1x64.Idx → EReal) (ix2 (0 : Fin 1) q) := by
  obtain ⟨f0, f1, f2, f3, f4, f5, f6, f7, f8, f9, f10⟩ := idx_facts0 t
  obtain ⟨e0, e1⟩ := f5
  show (V c main_v26 : S1x64.Idx → EReal) (((cfg0.win 5).blk t).view.emb (ix2 (0 : Fin 1) q)) = _
  refine congrArg (V c main_v26 : S1x64.Idx → EReal) (funext fun a => Fin.ext ?_)
  match a with
  | ⟨0, _⟩ => show win0_5.index t (0 : Fin 2) * 1 + 1 * 0 = 0; omega
  | ⟨1, _⟩ => show win0_5.index t (1 : Fin 2) * 64 + 1 * q.val = q.val; omega

theorem blk0_6 (c : Dev nD) (t : Fin cfg0.N) (q : Fin 64) (e : Fin 32) :
    (iblk0 V c 6 t (ix2 q e) : EReal) = (V c main_v27 : S64x32.Idx → EReal) (ix2 q e) := by
  obtain ⟨f0, f1, f2, f3, f4, f5, f6, f7, f8, f9, f10⟩ := idx_facts0 t
  obtain ⟨e0, e1⟩ := f6
  show (V c main_v27 : S64x32.Idx → EReal) (((cfg0.win 6).blk t).view.emb (ix2 q e)) = _
  refine congrArg (V c main_v27 : S64x32.Idx → EReal) (funext fun a => Fin.ext ?_)
  match a with
  | ⟨0, _⟩ => show win0_6.index t (0 : Fin 2) * 64 + 1 * q.val = q.val; omega
  | ⟨1, _⟩ => show win0_6.index t (1 : Fin 2) * 32 + 1 * e.val = e.val; omega

theorem blk0_7 (c : Dev nD) (t : Fin cfg0.N) (q : Fin 64) (e : Fin 32) :
    (iblk0 V c 7 t (ix2 q e) : EReal) = (V c main_v28 : S64x32.Idx → EReal) (ix2 q e) := by
  obtain ⟨f0, f1, f2, f3, f4, f5, f6, f7, f8, f9, f10⟩ := idx_facts0 t
  obtain ⟨e0, e1⟩ := f7
  show (V c main_v28 : S64x32.Idx → EReal) (((cfg0.win 7).blk t).view.emb (ix2 q e)) = _
  refine congrArg (V c main_v28 : S64x32.Idx → EReal) (funext fun a => Fin.ext ?_)
  match a with
  | ⟨0, _⟩ => show win0_7.index t (0 : Fin 2) * 64 + 1 * q.val = q.val; omega
  | ⟨1, _⟩ => show win0_7.index t (1 : Fin 2) * 32 + 1 * e.val = e.val; omega

theorem blk0_8 (c : Dev nD) (t : Fin cfg0.N)  (e : Fin 32) :
    (iblk0 V c 8 t (ix2 (0 : Fin 1) e) : EReal) = (V c main_v29 : S1x32.Idx → EReal) (ix2 (0 : Fin 1) e) := by
  obtain ⟨f0, f1, f2, f3, f4, f5, f6, f7, f8, f9, f10⟩ := idx_facts0 t
  obtain ⟨e0, e1⟩ := f8
  show (V c main_v29 : S1x32.Idx → EReal) (((cfg0.win 8).blk t).view.emb (ix2 (0 : Fin 1) e)) = _
  refine congrArg (V c main_v29 : S1x32.Idx → EReal) (funext fun a => Fin.ext ?_)
  match a with
  | ⟨0, _⟩ => show win0_8.index t (0 : Fin 2) * 1 + 1 * 0 = 0; omega
  | ⟨1, _⟩ => show win0_8.index t (1 : Fin 2) * 32 + 1 * e.val = e.val; omega

/-- The hidden features of a block's row are the hidden features of that row of the arrays. -/
theorem hid_blk (c : Dev nD) (t : Fin cfg0.N) (p : Fin 2000) (q : Fin 64) :
    hidB (iblk0 V c 0 t) (iblk0 V c 1 t) (iblk0 V c 2 t) (iblk0 V c 3 t) (iblk0 V c 4 t) (iblk0 V c 5 t) p q
      = hid (V c main_v16) (V c main_arg0) (V c main_v23) (V c main_v24) (V c main_v25) (V c main_v26) (row t p) q := by
  unfold hidB hid
  refine congrArg (fun x : EReal => max x 0) ?_
  refine congrArg₂ (· + ·) (congrArg₂ (· + ·) (Finset.sum_congr rfl fun k _ => ?_) (Finset.sum_congr rfl fun k _ => ?_)) ?_
  · rw [blk0_0, blk0_2, blk0_3]
  · rw [blk0_1, blk0_4]
  · exact blk0_5 V c t q

/-- What point `t` writes back for window 9 is block `t` of the whole-array function of the arrays as the launch finds them. -/
theorem flushed0_9_eq (c : Dev nD) (t : Fin cfg0.N) :
    (dat0 V c).flushed 9 t = ((cfg0.win 9).blk t).view.read (Elt Ideal) (proj (V c main_v16) (V c main_arg0) (V c main_v23) (V c main_v24) (V c main_v25) (V c main_v26) (V c main_v27)) := by
  show (cfg0.win 9).cut (grid0.coords t) ((dat0 V c).after 9 t) = _
  rw [after0_9]
  unfold out0_9
  rw [View.canon_unit_zero hz]
  simp only [View.ld_unit_zero (S := S2000x8) hz, View.ld_unit_zero (S := S2000x1) hz, View.ld_unit_zero (S := S8x64) hz,
    View.ld_unit_zero (S := S1x64) hz, View.ld_unit_zero (S := S64x32) hz, View.ld_unit_zero (S := S1x32) hz]
  obtain ⟨f0, f1, f2, f3, f4, f5, f6, f7, f8, f9, f10⟩ := idx_facts0 t
  obtain ⟨e0, e1⟩ := f9
  funext y
  obtain ⟨p, e, rfl⟩ : ∃ (p : Fin 2000) (e : Fin 32), y = ix2 p e := ⟨y 0, y 1, eq_ix2 y⟩
  refine (pay3_apply (iblk0 V c 0 t) (iblk0 V c 1 t) (iblk0 V c 2 t) (iblk0 V c 3 t) (iblk0 V c 4 t) (iblk0 V c 5 t) (iblk0 V c 6 t) p e).trans ?_
  have hemb : ((cfg0.win 9).blk t).view.emb (ix2 p e) = ix2 (row t p) e := funext fun a => Fin.ext (by
    match a with
    | ⟨0, _⟩ => show win0_9.index t (0 : Fin 2) * 2000 + 1 * p.val = t.val * 2000 + p.val; omega
    | ⟨1, _⟩ => show win0_9.index t (1 : Fin 2) * 32 + 1 * e.val = e.val; omega)
  show _ = proj (V c main_v16) (V c main_arg0) (V c main_v23) (V c main_v24) (V c main_v25) (V c main_v26) (V c main_v27) (((cfg0.win 9).blk t).view.emb (ix2 p e))
  rw [hemb]
  show _ = ∑ q : Fin 64, hid (V c main_v16) (V c main_arg0) (V c main_v23) (V c main_v24) (V c main_v25) (V c main_v26) (row t p) q * (V c main_v27 : S64x32.Idx → EReal) (ix2 q e)
  refine Finset.sum_congr rfl fun q _ => ?_
  rw [hid_blk, blk0_6]

/-- An index of the result is in point `t`'s block iff each coordinate is in the block's range on its axis. -/
theorem mem_blk0_9 (t : Fin cfg0.N) (i : S100000x32.Idx) :
    i ∈ ((cfg0.win 9).blk t).view.set ↔ ∀ a : Fin 2, win0_9.index t a * S2000x32.size a ≤ (i a).val ∧ (i a).val < win0_9.index t a * S2000x32.size a + S2000x32.size a := by
  show i ∈ ((View.whole main_v30_0).slice (win0_9.rect t)).set ↔ _
  rw [View.set_slice_whole, Rect.mem_set_unit]
  exact Iff.rfl

/-- The 50 row blocks tile the result: row `r` is in block `r / 2000`. -/
theorem cover0_9_all (i : S100000x32.Idx) : ∃ t : Fin cfg0.N, (cfg0.win 9).flush t = true ∧ i ∈ ((cfg0.win 9).blk t).view.set := by
  have hi0 : (i 0).val < 100000 := (i 0).isLt
  have hi1 : (i 1).val < 32 := (i 1).isLt
  obtain ⟨t, ht⟩ := idx_onto0 ⟨(i 0).val / 2000, by omega⟩
  have ht' : t.val = (i 0).val / 2000 := ht
  obtain ⟨f0, f1, f2, f3, f4, f5, f6, f7, f8, f9, f10⟩ := idx_facts0 t
  obtain ⟨e0, e1⟩ := f9
  refine ⟨t, flush0_9 t, ?_⟩
  rw [mem_blk0_9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 32 ≤ (i 1).val ∧ (i 1).val < win0_9.index t (1 : Fin 2) * 32 + 32; omega

/-- Window 9's array after the first launch. -/
theorem final0_9 (c : Dev nD) :
    (dat0 V c).arrAt 9 cfg0.N = proj (V c main_v16) (V c main_arg0) (V c main_v23) (V c main_v24) (V c main_v25) (V c main_v26) (V c main_v27) :=
  (dat0 V c).arrAt_eq_of_cover 9 _ (fun t _ => flushed0_9_eq V c t) cover0_9_all

/-- What point `t` writes back for window 10 is block `t` of the whole-array function of the arrays as the launch finds them. -/
theorem flushed0_10_eq (c : Dev nD) (t : Fin cfg0.N) :
    (dat0 V c).flushed 10 t = ((cfg0.win 10).blk t).view.read (Elt Ideal) (selfT (V c main_v16) (V c main_arg0) (V c main_v23) (V c main_v24) (V c main_v25) (V c main_v26) (V c main_v28) (V c main_v29)) := by
  show (cfg0.win 10).cut (grid0.coords t) ((dat0 V c).after 10 t) = _
  rw [after0_10]
  unfold out0_10
  rw [View.canon_unit_zero hz]
  simp only [View.ld_unit_zero (S := S2000x8) hz, View.ld_unit_zero (S := S2000x1) hz, View.ld_unit_zero (S := S8x64) hz,
    View.ld_unit_zero (S := S1x64) hz, View.ld_unit_zero (S := S64x32) hz, View.ld_unit_zero (S := S1x32) hz]
  obtain ⟨f0, f1, f2, f3, f4, f5, f6, f7, f8, f9, f10⟩ := idx_facts0 t
  obtain ⟨e0, e1⟩ := f10
  funext y
  obtain ⟨p, e, rfl⟩ : ∃ (p : Fin 2000) (e : Fin 32), y = ix2 p e := ⟨y 0, y 1, eq_ix2 y⟩
  refine (pay1_apply (iblk0 V c 0 t) (iblk0 V c 1 t) (iblk0 V c 2 t) (iblk0 V c 3 t) (iblk0 V c 4 t) (iblk0 V c 5 t) (iblk0 V c 7 t) (iblk0 V c 8 t) p e).trans ?_
  have hemb : ((cfg0.win 10).blk t).view.emb (ix2 p e) = ix2 (row t p) e := funext fun a => Fin.ext (by
    match a with
    | ⟨0, _⟩ => show win0_10.index t (0 : Fin 2) * 2000 + 1 * p.val = t.val * 2000 + p.val; omega
    | ⟨1, _⟩ => show win0_10.index t (1 : Fin 2) * 32 + 1 * e.val = e.val; omega)
  show _ = selfT (V c main_v16) (V c main_arg0) (V c main_v23) (V c main_v24) (V c main_v25) (V c main_v26) (V c main_v28) (V c main_v29) (((cfg0.win 10).blk t).view.emb (ix2 p e))
  rw [hemb]
  show _ = (∑ q : Fin 64, hid (V c main_v16) (V c main_arg0) (V c main_v23) (V c main_v24) (V c main_v25) (V c main_v26) (row t p) q * (V c main_v28 : S64x32.Idx → EReal) (ix2 q e))
      + (V c main_v29 : S1x32.Idx → EReal) (ix2 (0 : Fin 1) e)
  refine congrArg₂ (· + ·) (Finset.sum_congr rfl fun q _ => ?_) (blk0_8 V c t e)
  rw [hid_blk, blk0_7]

/-- An index of the result is in point `t`'s block iff each coordinate is in the block's range on its axis. -/
theorem mem_blk0_10 (t : Fin cfg0.N) (i : S100000x32.Idx) :
    i ∈ ((cfg0.win 10).blk t).view.set ↔ ∀ a : Fin 2, win0_10.index t a * S2000x32.size a ≤ (i a).val ∧ (i a).val < win0_10.index t a * S2000x32.size a + S2000x32.size a := by
  show i ∈ ((View.whole main_v30_1).slice (win0_10.rect t)).set ↔ _
  rw [View.set_slice_whole, Rect.mem_set_unit]
  exact Iff.rfl

/-- The 50 row blocks tile the result: row `r` is in block `r / 2000`. -/
theorem cover0_10_all (i : S100000x32.Idx) : ∃ t : Fin cfg0.N, (cfg0.win 10).flush t = true ∧ i ∈ ((cfg0.win 10).blk t).view.set := by
  have hi0 : (i 0).val < 100000 := (i 0).isLt
  have hi1 : (i 1).val < 32 := (i 1).isLt
  obtain ⟨t, ht⟩ := idx_onto0 ⟨(i 0).val / 2000, by omega⟩
  have ht' : t.val = (i 0).val / 2000 := ht
  obtain ⟨f0, f1, f2, f3, f4, f5, f6, f7, f8, f9, f10⟩ := idx_facts0 t
  obtain ⟨e0, e1⟩ := f10
  refine ⟨t, flush0_10 t, ?_⟩
  rw [mem_blk0_10]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 32 ≤ (i 1).val ∧ (i 1).val < win0_10.index t (1 : Fin 2) * 32 + 32; omega

/-- Window 10's array after the first launch. -/
theorem final0_10 (c : Dev nD) :
    (dat0 V c).arrAt 10 cfg0.N = selfT (V c main_v16) (V c main_arg0) (V c main_v23) (V c main_v24) (V c main_v25) (V c main_v26) (V c main_v28) (V c main_v29) :=
  (dat0 V c).arrAt_eq_of_cover 10 _ (fun t _ => flushed0_10_eq V c t) cover0_10_all

end Cert.KernelIdeal.KValue0

end
-- ==== Proof.KWalk.lean ====
/-
  The boundary contents of the idealized kernel's run, walked back to the program's arguments.

  Before the first launch the host computes, from the features `X` and the edge list `EI`: the neighbour sums and the
  reciprocal-degree column (through one gather and one scatter-add of the features with a column of ones appended), and
  lays out the weights and biases.  Between the launches it gathers the first launch's projected hidden features along
  the edges' sources and sums them onto the edges' destinations.  Each of these is read here as a whole-array function
  of the arguments; the launches' arrays are left as the launches' own functions of what they find.
-/
import proofs.«165062_j69286412419258_2_alg».proof.Proof.Gen.KernelIdeal.Frame
import proofs.«165062_j69286412419258_2_alg».proof.Proof.KHost
import proofs.«165062_j69286412419258_2_alg».proof.Proof.KDefs
import proofs.«165062_j69286412419258_2_alg».proof.Proof.KTerm
import proofs.«165062_j69286412419258_2_alg».proof.Proof.K1
import proofs.«165062_j69286412419258_2_alg».proof.Proof.K0
import Idealize.ShloMosaic.Lib.StableHlo.Run
import Idealize.ShloMosaic.Lib.Pipeline.Value

set_option maxRecDepth 16384

noncomputable section

namespace Cert.KernelIdeal.KWalk

open Cert.KernelIdeal Cert.KernelIdeal.Gen Cert.KernelIdeal.KHost Cert.KernelIdeal.KDefs Cert.KernelIdeal.KTerm
open Idealize.ShloMosaic Idealize.ShloMosaic.TcCoe Idealize.ShloMosaic.Tactic Idealize.SL.Sem Idealize.ShloMosaic.StableHlo
open Idealize.ShloMosaic.Pipeline (Dat Cfg Window)

variable (m : (ℓ : Loc nD τ sig) → Buf (Elt Ideal) ℓ) (ρ : Dev nD → PrngReg)

/-! ## Before the first launch -/

theorem V1_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem V1_v24 (c : Dev nD) : (V1 m ρ c main_v24 : S8x64.Idx → EReal) = tr1 (m ((c : Thread nD τ).loc main_arg2)) := by
  dsimp only [V1, W1, hostOps0]; after_results; rfl
theorem V1_v25 (c : Dev nD) : (V1 m ρ c main_v25 : S8x64.Idx → EReal) = tr1 (m ((c : Thread nD τ).loc main_arg3)) := by
  dsimp only [V1, W1, hostOps0]; after_results; rfl
theorem V1_v26 (c : Dev nD) : (V1 m ρ c main_v26 : S1x64.Idx → EReal) = row1 (m ((c : Thread nD τ).loc main_arg4)) := by
  dsimp only [V1, W1, hostOps0]; after_results; rfl
theorem V1_v27 (c : Dev nD) : (V1 m ρ c main_v27 : S64x32.Idx → EReal) = tr2 (m ((c : Thread nD τ).loc main_arg5)) := by
  dsimp only [V1, W1, hostOps0]; after_results; rfl
theorem V1_v28 (c : Dev nD) : (V1 m ρ c main_v28 : S64x32.Idx → EReal) = tr2 (m ((c : Thread nD τ).loc main_arg6)) := by
  dsimp only [V1, W1, hostOps0]; after_results; rfl
theorem V1_v29 (c : Dev nD) : (V1 m ρ c main_v29 : S1x32.Idx → EReal) = row2 (m ((c : Thread nD τ).loc main_arg7)) := by
  dsimp only [V1, W1, hostOps0]; after_results; rfl

set_option maxHeartbeats 4000000 in
theorem V1_v16 (c : Dev nD) : (V1 m ρ c main_v16 : S100000x8.Idx → EReal)
    = agg1 (m ((c : Thread nD τ).loc main_arg0)) (m ((c : Thread nD τ).loc main_arg1)) := by
  dsimp only [V1, W1, hostOps0]; after_results_simp <;> rfl

set_option maxHeartbeats 4000000 in
theorem V1_v23 (c : Dev nD) : (V1 m ρ c main_v23 : S100000x1.Idx → EReal)
    = invCnt (m ((c : Thread nD τ).loc main_arg0)) (m ((c : Thread nD τ).loc main_arg1)) := by
  dsimp only [V1, W1, hostOps0]; after_results_simp <;> rfl

/-- The sources' vector, as the second stretch of host operations finds it. -/
theorem W2_v1 (c : Dev nD) : (W2 m ρ c (Proc.devRef .tc main_v1) : S1600000.Idx → BitVec 32)
    = Cert.Graph.srcVec (m ((c : Thread nD τ).loc main_arg1)) :=
  (W2_of_ne m ρ c main_v1 (by decide)).trans (by
    show StableHlo.after hostOps0 (W0 m ρ c) (Proc.devRef .tc main_v1) = _
    dsimp only [hostOps0]; after_results; rfl)

/-- The destinations' vector, as the second stretch of host operations finds it. -/
theorem W2_v3 (c : Dev nD) : (W2 m ρ c (Proc.devRef .tc main_v3) : S1600000.Idx → BitVec 32)
    = shapeCast Cert.Graph.SE (extractStridedSlice Cert.Graph.S1E ![1, 0] (m ((c : Thread nD τ).loc main_arg1)) Cert.Graph.slices1) Cert.Graph.casts :=
  (W2_of_ne m ρ c main_v3 (by decide)).trans (by
    show StableHlo.after hostOps0 (W0 m ρ c) (Proc.devRef .tc main_v3) = _
    dsimp only [hostOps0]; after_results; rfl)

/-! ## Between the launches -/

/-- The second stretch's aggregate, from the gathered array and the two index vectors it is given. -/
def agg2Of (P : FVec Ideal S100000x32 .f32) (sv dv : IVec S1600000 32) : FVec Ideal S100000x32 .f32 :=
  Host.scatterAdd scatter_S100000x32_S1600000x1_S1600000x32_1_0_0_1
    (broadcastInDim S100000x32 ![] Facts₀.bcast_S_S100000x32 (constant (F := Ideal) S_ .f32 0x00000000#32))
    (broadcastInDim S1600000x1 ![0] Facts₀.bcast_S1600000_S1600000x1_0 dv)
    (Host.gather gather_S100000x32_S1600000x1_S1600000x32_1_0_n_n_0_1_132 P
      (broadcastInDim S1600000x1 ![0] Facts₀.bcast_S1600000_S1600000x1_0
        (select (cmpi .slt sv (broadcastInDim S1600000 ![] Facts₀.bcast_S_S1600000 (constantI S_ 32 0#32)))
          (addi sv (broadcastInDim S1600000 ![] Facts₀.bcast_S_S1600000 (constantI S_ 32 100000#32))) sv)))

/-- With the edge list's own two vectors it is the aggregate over the graph. -/
theorem agg2Of_graph (P : FVec Ideal S100000x32 .f32) (EI : IVec S2x1600000 32) :
    agg2Of P (Cert.Graph.srcVec EI)
      (shapeCast Cert.Graph.SE (extractStridedSlice Cert.Graph.S1E ![1, 0] EI Cert.Graph.slices1) Cert.Graph.casts) = agg2 P EI := rfl

/-- The second stretch of host operations, from ANY contents it is entered with: its last result. -/
theorem after1_v40 (W : Valuation τ sig (Elt Ideal)) :
    (StableHlo.after hostOps1 W (Proc.devRef .tc main_v40) : S100000x32.Idx → EReal)
      = agg2Of (W (Proc.devRef .tc main_v30_0)) (W (Proc.devRef .tc main_v1)) (W (Proc.devRef .tc main_v3)) := by
  dsimp only [hostOps1]; after_results; rfl

/-- The aggregated projections: the first launch's first result gathered along the sources and summed onto the
    destinations. -/
theorem V3_v40 (c : Dev nD) : (V3 m ρ c main_v40 : S100000x32.Idx → EReal)
    = agg2 (W2 m ρ c (Proc.devRef .tc main_v30_0)) (m ((c : Thread nD τ).loc main_arg1)) :=
  (after1_v40 (W2 m ρ c)).trans
    ((congrArg₂ (agg2Of (W2 m ρ c (Proc.devRef .tc main_v30_0))) (W2_v1 m ρ c) (W2_v3 m ρ c)).trans
      (agg2Of_graph _ _))

/-- The reciprocal-degree column reaches the second launch unchanged: no operation of the second stretch writes it, and
    it is an input window of the first launch. -/
theorem V3_v23 (c : Dev nD) : (V3 m ρ c main_v23 : S100000x1.Idx → EReal)
    = invCnt (m ((c : Thread nD τ).loc main_arg0)) (m ((c : Thread nD τ).loc main_arg1)) :=
  calc V3 m ρ c main_v23
    _ = W2 m ρ c (Proc.devRef .tc main_v23) := StableHlo.after_of_forall_not_mem (b := Proc.devRef .tc main_v23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V1 m ρ c main_v23 := (W2_arr m ρ c 2).trans (((dat0 (V1 m ρ) c).arrAt_in 2 rfl _).trans (A_eq0 (V1 m ρ) c 2))
    _ = _ := V1_v23 m ρ c

/-- The first launch's second result reaches the second launch unchanged. -/
theorem V3_v30_1 (c : Dev nD) : V3 m ρ c main_v30_1 = (dat0 (V1 m ρ) c).arrAt 10 cfg0.N :=
  calc V3 m ρ c main_v30_1
    _ = W2 m ρ c (Proc.devRef .tc main_v30_1) := StableHlo.after_of_forall_not_mem (b := Proc.devRef .tc main_v30_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := W2_arr m ρ c 10

/-- The result buffer at the end: the combine step of what the second launch finds. -/
theorem W4_v41 (c : Dev nD) : (W4 m ρ c (Proc.devRef .tc main_v41) : S100000x32.Idx → EReal)
    = comb (V3 m ρ c main_v40) (V3 m ρ c main_v23) (V3 m ρ c main_v30_1) :=
  (W4_arr m ρ c 3).trans (Cert.KernelIdeal.KValue.final1_3 (V3 m ρ) c)

/-! ## The result, from the arguments -/

theorem proj_congr {A A' X X' : S100000x8.Idx → EReal} {IC IC' : S100000x1.Idx → EReal} {W1 W1a W1' W1a' : S8x64.Idx → EReal}
    {B1 B1a : S1x64.Idx → EReal} {W2 W2a : S64x32.Idx → EReal}
    (h1 : A = A') (h2 : X = X') (h3 : IC = IC') (h4 : W1 = W1a) (h5 : W1' = W1a') (h6 : B1 = B1a) (h7 : W2 = W2a) :
    proj A X IC W1 W1' B1 W2 = proj A' X' IC' W1a W1a' B1a W2a := by rw [h1, h2, h3, h4, h5, h6, h7]

theorem selfT_congr {A A' X X' : S100000x8.Idx → EReal} {IC IC' : S100000x1.Idx → EReal} {W1 W1a W1' W1a' : S8x64.Idx → EReal}
    {B1 B1a : S1x64.Idx → EReal} {W2 W2a : S64x32.Idx → EReal} {B2 B2a : S1x32.Idx → EReal}
    (h1 : A = A') (h2 : X = X') (h3 : IC = IC') (h4 : W1 = W1a) (h5 : W1' = W1a') (h6 : B1 = B1a) (h7 : W2 = W2a) (h8 : B2 = B2a) :
    selfT A X IC W1 W1' B1 W2 B2 = selfT A' X' IC' W1a W1a' B1a W2a B2a := by rw [h1, h2, h3, h4, h5, h6, h7, h8]

theorem comb_congr {A A' S S' : S100000x32.Idx → EReal} {IC IC' : S100000x1.Idx → EReal}
    (h1 : A = A') (h2 : IC = IC') (h3 : S = S') : comb A IC S = comb A' IC' S' := by rw [h1, h2, h3]

/-- The first launch's first result, as the second stretch finds it: the projected hidden features of the arguments. -/
theorem W2_v30_0 (c : Dev nD) : (W2 m ρ c (Proc.devRef .tc main_v30_0) : S100000x32.Idx → EReal)
    = proj (agg1 (m ((c : Thread nD τ).loc main_arg0)) (m ((c : Thread nD τ).loc main_arg1))) (m ((c : Thread nD τ).loc main_arg0))
        (invCnt (m ((c : Thread nD τ).loc main_arg0)) (m ((c : Thread nD τ).loc main_arg1)))
        (tr1 (m ((c : Thread nD τ).loc main_arg2))) (tr1 (m ((c : Thread nD τ).loc main_arg3))) (row1 (m ((c : Thread nD τ).loc main_arg4)))
        (tr2 (m ((c : Thread nD τ).loc main_arg5))) :=
  (W2_arr m ρ c 9).trans ((Cert.KernelIdeal.KValue0.final0_9 (V1 m ρ) c).trans
    (proj_congr (V1_v16 m ρ c) (V1_arg0 m ρ c) (V1_v23 m ρ c) (V1_v24 m ρ c) (V1_v25 m ρ c) (V1_v26 m ρ c) (V1_v27 m ρ c)))

/-- THE RESULT: the last boundary's contents at the result buffer are the kernel's whole-array function of the
    arguments. -/
theorem result_eq (c : Dev nD) : (W4 m ρ c (Proc.devRef .tc main_v41) : S100000x32.Idx → EReal)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W4_v41 m ρ c).trans (comb_congr
    ((V3_v40 m ρ c).trans (congrArg (fun P => agg2 P (m ((c : Thread nD τ).loc main_arg1))) (W2_v30_0 m ρ c)))
    (V3_v23 m ρ c)
    ((V3_v30_1 m ρ c).trans ((Cert.KernelIdeal.KValue0.final0_10 (V1 m ρ) c).trans
      (selfT_congr (V1_v16 m ρ c) (V1_arg0 m ρ c) (V1_v23 m ρ c) (V1_v24 m ρ c) (V1_v25 m ρ c) (V1_v26 m ρ c) (V1_v28 m ρ c) (V1_v29 m ρ c)))))

end Cert.KernelIdeal.KWalk

end
-- ==== Proof.LibSegment.lean ====
/-
  Row gather and segment sum read at an index, over abstract extents `N` (rows of the table), `E` (number of start
  indices) and `C` (columns).

  * ROW GATHER. `stablehlo.gather` of a table `x : [N, C]` at start indices `idx : [E, 1]` with offset axis 1, collapsed
    axis 0, start index map `[0]`, index vector axis 1 and slice sizes `[1, C]` (what taking rows `x[src]` is) reads, at
    `(e, k)`, the table at row `idx[e, 0]` — the word read as a SIGNED integer and CLAMPED into `[0, N − 1]` — and
    column `k`: on axis 0 the operand coordinate is the clamped start, on axis 1 it is the offset coordinate `k`.
  * SEGMENT SUM. `stablehlo.scatter` with an add body into an operand `x : [N, C]` of updates `upd : [E, C]` at scatter
    indices `idx : [E, 1]` (update window axis 1, inserted window axis 0, scatter-dims-to-operand-dims `[0]`, index
    vector axis 1) is, at the extended reals and at `(i, k)`, `x (i, k)` plus the sum of `upd (e, k)` over the edges `e`
    whose index `idx[e, 0]`, read SIGNED and NOT clamped, equals `i`: update `(e, k')` lands at row `idx[e, 0]`, column
    `k'`, and is dropped when that row is outside `[0, N)`; so it lands on `(i, k)` exactly when `idx[e, 0] = i` and
    `k' = k`, and the filtered sum over update indices re-indexes to the sum over those edges.
  * The same for a vector operand `x : [N]` with updates `upd : [E]` (no window axis).
-/
import Idealize.ShloMosaic.PureOps.Ideal
import Idealize.ShloMosaic.Lib.ValueIdx

noncomputable section

open scoped BigOperators

namespace Cert.LibSegment

open Idealize.ShloMosaic Idealize.ShloMosaic.ValueIdx

/-- The row a start index names: read signed and clamped into `[0, N − 1]`. -/
def clampRow (N : ℕ) (hN : 0 < N) {w : ℕ} (v : BitVec w) : Fin N := ⟨min v.toInt.toNat (N - 1), by omega⟩

/-- The edges whose index, read signed and not clamped, is node `i`. -/
def landing {N E w : ℕ} (idx : IVec ⟨2, ![E, 1]⟩ w) (i : Fin N) : Finset (Fin E) :=
  Finset.univ.filter fun e => (idx (ix2 e (0 : Fin 1))).toInt = (i.val : ℤ)

/-! ## Row gather -/

/-- The dimension numbers of a row gather: operand `[N, C]`, start indices `[E, 1]`, result `[E, C]`; their conditions
    `wf` are decided on a program's literal shapes. -/
abbrev rowGatherDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the row `idx[e, 0]` names (signed, clamped into `[0, N − 1]`) and
    column `k`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (clampRow N hN (idx (ix2 e (0 : Fin 1)))) k) := by
  unfold Host.gather
  congr 1
  funext a
  refine Fin.ext ?_
  match a with
  | ⟨0, _⟩ =>
    -- axis 0 is collapsed and named by the start index map: the coordinate is the clamped start
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the one kept axis, not named by the start index map: start 0, offset coordinate `k`
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hst : (rowGatherDims N E C wf).start (ix2 e k) idx 1 = 0 := by
      unfold GatherDims.start
      rw [dif_neg (fun h => absurd (List.mem_singleton.mp h) (show ¬ (1 : Fin 2) = 0 by decide))]
    rw [hst]
    simp only [Nat.add_zero, Nat.zero_add]
    rfl

/-! ## Scatter: where an update lands -/

/-- An update lands on operand index `i` exactly when, on every operand axis, its start plus its window coordinate is
    `i`'s coordinate (in particular inside the operand). -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg (fun f => (f a).val) hf
      simp only at h1
      have := h a
      omega
    · intro hall
      funext a
      refine Fin.ext ?_
      show (d.start j idx a + (d.window j a : ℤ)).toNat = (i a).val
      rw [hall a]; exact Int.toNat_natCast _
  · rename_i h
    constructor
    · intro h0; exact absurd h0 (by simp)
    · intro hall
      exfalso; apply h
      intro a
      rw [hall a]
      exact ⟨Int.natCast_nonneg _, by exact_mod_cast (i a).isLt⟩

/-! ## Segment sum into rows -/

/-- The dimension numbers of a row scatter: operand `[N, C]`, scatter indices `[E, 1]`, updates `[E, C]`; their
    conditions `wf` are decided on a program's literal shapes. -/
abbrev rowScatterDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k')` lands on `(i, k)` exactly when the index `idx[e, 0]`, read signed, is `i` and `k' = k`: on axis 0
    the start is the signed index and the window coordinate 0, on axis 1 the start is 0 and the window coordinate `k'`. -/
theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (k' : Fin C) (i : Fin N) (k : Fin C) :
    (rowScatterDims N E C wf).resultIdx? (ix2 e k') idx = some (ix2 i k)
      ↔ (idx (ix2 e (0 : Fin 1))).toInt = (i.val : ℤ) ∧ k' = k := by
  rw [resultIdx?_eq_some_iff]
  have hs0 : (rowScatterDims N E C wf).start (ix2 e k') idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e k') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e k') idx 1 = 0 := by
    unfold ScatterDims.start
    rw [dif_neg (fun h => absurd (List.mem_singleton.mp h) (show ¬ (1 : Fin 2) = 0 by decide))]
  have hw0 : (rowScatterDims N E C wf).window (ix2 e k') 0 = 0 := rfl
  have hw1 : (rowScatterDims N E C wf).window (ix2 e k') 1 = k'.val := rfl
  constructor
  · intro h
    have h0 := h 0
    have h1 := h 1
    rw [hs0, hw0] at h0
    rw [hs1, hw1] at h1
    have e0 : (((ix2 i k : (⟨2, ![N, C]⟩ : Shape).Idx) 0).val : ℤ) = (i.val : ℤ) := rfl
    have e1 : (((ix2 i k : (⟨2, ![N, C]⟩ : Shape).Idx) 1).val : ℤ) = (k.val : ℤ) := rfl
    rw [e0] at h0; rw [e1] at h1
    exact ⟨by omega, Fin.ext (by omega)⟩
  · rintro ⟨h0, rfl⟩ a
    match a with
    | ⟨0, _⟩ =>
      show (rowScatterDims N E C wf).start (ix2 e k') idx 0 + (((rowScatterDims N E C wf).window (ix2 e k') 0 : ℕ) : ℤ) = (i.val : ℤ)
      rw [hs0, hw0, h0]; simp
    | ⟨1, _⟩ =>
      show (rowScatterDims N E C wf).start (ix2 e k') idx 1 + (((rowScatterDims N E C wf).window (ix2 e k') 1 : ℕ) : ℤ) = (k'.val : ℤ)
      rw [hs1, hw1]; simp

/-- THE SEGMENT SUM READ AT `(i, k)`: the operand there plus the sum, over the edges whose index read signed is `i`, of
    the update at `(e, k)`. -/
theorem rowScatterAdd_apply {N E C w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd (rowScatterDims N E C wf) x idx upd (ix2 i k) = x (ix2 i k) + ∑ e ∈ landing idx i, upd (ix2 e k) := by
  unfold Ideal.hostScatterAdd
  congr 1
  -- the update indices landing on `(i, k)` are the `(e, k)` with `e` an edge into `i`: re-index by the first coordinate
  refine Finset.sum_nbij' (fun j => (j 0 : Fin E)) (fun e => ix2 e k) ?_ ?_ ?_ ?_ ?_
  · intro j hj
    obtain ⟨e, k', rfl⟩ : ∃ (e : Fin E) (k' : Fin C), j = ix2 e k' := ⟨j 0, j 1, eq_ix2 j⟩
    have hl := (rowScatter_lands wf idx e k' i k).mp (Finset.mem_filter.mp hj).2
    exact Finset.mem_filter.mpr ⟨Finset.mem_univ _, hl.1⟩
  · intro e he
    exact Finset.mem_filter.mpr ⟨Finset.mem_univ _,
      (rowScatter_lands wf idx e k i k).mpr ⟨(Finset.mem_filter.mp he).2, rfl⟩⟩
  · intro j hj
    obtain ⟨e, k', rfl⟩ : ∃ (e : Fin E) (k' : Fin C), j = ix2 e k' := ⟨j 0, j 1, eq_ix2 j⟩
    obtain ⟨_, rfl⟩ := (rowScatter_lands wf idx e k' i k).mp (Finset.mem_filter.mp hj).2
    rfl
  · intro e _
    rfl
  · intro j hj
    obtain ⟨e, k', rfl⟩ : ∃ (e : Fin E) (k' : Fin C), j = ix2 e k' := ⟨j 0, j 1, eq_ix2 j⟩
    obtain ⟨_, rfl⟩ := (rowScatter_lands wf idx e k' i k).mp (Finset.mem_filter.mp hj).2
    rfl

/-! ## Segment sum into a vector -/

/-- The dimension numbers of a scatter into a vector: operand `[N]`, scatter indices `[E, 1]`, updates `[E]` (no window
    axis); their conditions `wf` are decided on a program's literal shapes. -/
abbrev vecScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on `i` exactly when the index `idx[e, 0]`, read signed, is `i`: on the one operand axis the start is
    the signed index and the window coordinate 0. -/
theorem vecScatter_lands {N E w : ℕ} (wf : ScatterDims.WF ⟨1, ![N]⟩ ⟨2, ![E, 1]⟩ ⟨1, ![E]⟩ [] [0] [0] 1)
    (idx : IVec ⟨2, ![E, 1]⟩ w) (e : Fin E) (i : Fin N) :
    (vecScatterDims N E wf).resultIdx? (ix1 e) idx = some (ix1 i) ↔ (idx (ix2 e (0 : Fin 1))).toInt = (i.val : ℤ) := by
  rw [resultIdx?_eq_some_iff]
  have hs0 : (vecScatterDims N E wf).start (ix1 e) idx 0 = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e) ⟨List.idxOf (0 : Fin 1) (vecScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatterDims N E wf).window (ix1 e) 0 = 0 := rfl
  constructor
  · intro h
    have h0 := h 0
    rw [hs0, hw0] at h0
    have e0 : (((ix1 i : (⟨1, ![N]⟩ : Shape).Idx) 0).val : ℤ) = (i.val : ℤ) := rfl
    rw [e0] at h0
    omega
  · intro h0 a
    match a with
    | ⟨0, _⟩ =>
      show (vecScatterDims N E wf).start (ix1 e) idx 0 + (((vecScatterDims N E wf).window (ix1 e) 0 : ℕ) : ℤ) = (i.val : ℤ)
      rw [hs0, hw0, h0]; simp

/-- THE SEGMENT SUM INTO A VECTOR READ AT `i`: the operand there plus the sum, over the edges whose index read signed
    is `i`, of the update at `e`. -/
theorem vecScatterAdd_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecScatterDims N E wf) x idx upd (ix1 i) = x (ix1 i) + ∑ e ∈ landing idx i, upd (ix1 e) := by
  unfold Ideal.hostScatterAdd
  congr 1
  -- the update indices landing on `i` are the edges into `i`: re-index by the one coordinate
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (vecScatter_lands wf idx e i).mp (Finset.mem_filter.mp hj).2⟩
  · intro e he
    exact Finset.mem_filter.mpr ⟨Finset.mem_univ _, (vecScatter_lands wf idx e i).mpr (Finset.mem_filter.mp he).2⟩
  · intro j _
    obtain ⟨e, rfl⟩ : ∃ e : Fin E, j = ix1 e := ⟨j 0, eq_ix1 j⟩
    rfl
  · intro e _
    rfl
  · intro j _
    obtain ⟨e, rfl⟩ : ∃ e : Fin E, j = ix1 e := ⟨j 0, eq_ix1 j⟩
    rfl

end Cert.LibSegment

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.KIndex.lean ====
/-
  The idealized kernel's whole result read at one node and one output feature: it is the two-layer mean-aggregation
  network in its "reciprocal first, projection before aggregation" arrangement, over the graph the edge list defines.

  Edge e leaves from the node its source entry names once wrapped and clamped, and lands on the node i exactly when
  its destination entry, read signed, is i.  The features with a column of ones appended, gathered along the sources
  and summed onto the destinations, give in their first eight columns the neighbour sums and in the ninth the number
  of incoming edges; the reciprocal of that number floored at one is the scale of both layers.
-/
import proofs.«165062_j69286412419258_2_alg».proof.Proof.KTerm
import proofs.«165062_j69286412419258_2_alg».proof.Proof.SageSpec
import proofs.«165062_j69286412419258_2_alg».proof.Proof.LibSegment
import proofs.«165062_j69286412419258_2_alg».proof.Proof.LibCols
import proofs.«165062_j69286412419258_2_alg».proof.Proof.LibRowwise
import proofs.«165062_j69286412419258_2_alg».proof.Proof.Graph
import Idealize.ShloMosaic.Lib.ValueIdx
import Idealize.ShloMosaic.Lib.Pipeline.Value
import Idealize.ShloMosaic.PureOps.Ideal.Laws

noncomputable section

open scoped BigOperators

namespace Cert.KernelIdeal.KIndex

open Cert.KernelIdeal Cert.KernelIdeal.Facts₀ Cert.KernelIdeal.KHost Cert.KernelIdeal.KDefs Cert.KernelIdeal.KTerm
open Idealize.ShloMosaic Idealize.SL.Sem Idealize.ShloMosaic.ValueIdx

/-! ## The graph of the edge list -/

/-- The edges landing on node i. -/
abbrev inE (EI : IVec S2x1600000 32) : Fin 100000 → Finset (Fin 1600000) :=
  fun i : Fin 100000 => Cert.LibSegment.landing (Cert.Graph.dstIdx EI) i

/-- The node edge e leaves from. -/
abbrev src (EI : IVec S2x1600000 32) : Fin 1600000 → Fin 100000 :=
  fun e : Fin 1600000 => Cert.LibSegment.clampRow 100000 (by decide) (Cert.Graph.srcIdx EI (ix2 e (0 : Fin 1)))

/-! ## The two constants -/

/-- The word of the float one encodes the real one. -/
theorem ofBits_one_f32 : Ideal.ofBits .f32 0x3F800000#32 = 1 := by
  simp [Ideal.ofBits, Ideal.ieee, -EReal.coe_mul]; norm_num

/-! ## The features with a column of ones -/

/-- The augmented features at (n, k): the features below column eight, one in column eight. -/
theorem xAug_apply (X : FVec Ideal S100000x8 .f32) (n : Fin 100000) (k : Fin 9) :
    xAug X (ix2 n k) = if hk : k.val < 8 then X (ix2 n ⟨k.val, hk⟩) else 1 := by
  unfold xAug
  refine (Cert.LibRowwise.concatenate_cols_apply (R := 100000) (a := 8) (b := 1) (c := 9) rfl X _ _ n k).trans ?_
  by_cases hk : k.val < 8
  · rw [dif_pos hk, dif_pos hk]
  · rw [dif_neg hk, dif_neg hk]
    exact ofBits_one_f32

/-! ## The segment sums of the augmented features -/

/-- The zero word read anywhere in the zero-filled array is zero. -/
theorem zeros9_apply (j : S100000x9.Idx) :
    broadcastInDim S100000x9 ![] bcast_S_S100000x9 (constant (F := Ideal) S_ .f32 0x00000000#32) j = 0 := by
  rw [broadcastInDim_apply ![] bcast_S_S100000x9 _ j ix0 (fun a => a.elim0), constant_apply]
  exact Ideal.ofBits_zero_f32

/-- The aggregation of the augmented features is a row gather followed by a segment sum into rows. -/
theorem aggAug_eq (X : FVec Ideal S100000x8 .f32) (EI : IVec S2x1600000 32) :
    aggAug X EI
      = Ideal.hostScatterAdd (Cert.LibSegment.rowScatterDims 100000 1600000 9 Facts₀.scatter_S100000x9_S1600000x1_S1600000x9_1_0_0_1_wf)
          (broadcastInDim S100000x9 ![] Facts₀.bcast_S_S100000x9 (constant (F := Ideal) S_ .f32 0x00000000#32))
          (Cert.Graph.dstIdx EI)
          (Host.gather (Cert.LibSegment.rowGatherDims 100000 1600000 9 Facts₀.gather_S100000x9_S1600000x1_S1600000x9_1_0_n_n_0_1_19_wf)
            (xAug X) (Cert.Graph.srcIdx EI)) := rfl

/-- The aggregated augmented features at (i, k): the sum over the edges landing on i of the source's entry. -/
theorem aggAug_apply (X : FVec Ideal S100000x8 .f32) (EI : IVec S2x1600000 32) (i : Fin 100000) (k : Fin 9) :
    aggAug X EI (ix2 i k) = ∑ e ∈ inE EI i, xAug X (ix2 (src EI e) k) := by
  rw [aggAug_eq, Cert.LibSegment.rowScatterAdd_apply, zeros9_apply, zero_add]
  refine Finset.sum_congr rfl fun e _ => ?_
  rw [Cert.LibSegment.rowGather_apply (by decide)]

/-- The neighbour sums of the features at (i, k). -/
theorem agg1_apply (X : FVec Ideal S100000x8 .f32) (EI : IVec S2x1600000 32) (i : Fin 100000) (k : Fin 8) :
    agg1 X EI (ix2 i k) = ∑ e ∈ inE EI i, X (ix2 (src EI e) k) := by
  unfold agg1
  rw [Cert.LibCols.slice_cols_zero_apply (R := 100000) (C := 9) (C' := 8) (aggAug X EI) slices_S100000x9_S100000x8_0_0 i k
    (by have := k.isLt; omega), aggAug_apply]
  refine Finset.sum_congr rfl fun e _ => ?_
  rw [xAug_apply, dif_pos (show ((⟨k.val, by have := k.isLt; omega⟩ : Fin 9)).val < 8 from k.isLt)]

/-- The ninth column of the aggregated augmented features: the number of edges landing on i. -/
theorem cnt_apply (X : FVec Ideal S100000x8 .f32) (EI : IVec S2x1600000 32) (i : Fin 100000) :
    aggAug X EI (ix2 i (⟨8, by decide⟩ : Fin 9)) = ∑ _e ∈ inE EI i, (1 : EReal) := by
  rw [aggAug_apply]
  refine Finset.sum_congr rfl fun e _ => ?_
  rw [xAug_apply, dif_neg (show ¬ ((⟨8, by decide⟩ : Fin 9)).val < 8 by decide)]

/-! ## The reciprocal-degree column -/

/-- The one word read anywhere in the vector filled with it is one. -/
theorem ones_apply (j : S100000.Idx) :
    broadcastInDim S100000 ![] bcast_S_S100000 (constant (F := Ideal) S_ .f32 0x3F800000#32) j = 1 := by
  rw [broadcastInDim_apply ![] bcast_S_S100000 _ j ix0 (fun a => a.elim0), constant_apply]
  exact ofBits_one_f32

/-- The ninth column laid as a vector, at i: the number of edges landing on i. -/
theorem cntVec_apply (X : FVec Ideal S100000x8 .f32) (EI : IVec S2x1600000 32) (i : Fin 100000) :
    shapeCast S100000 (extractStridedSlice S100000x1 ![0, 8] (aggAug X EI) slices_S100000x9_S100000x1_0_8)
        shapeCasts_S100000x1_S100000 (ix1 i) = ∑ _e ∈ inE EI i, (1 : EReal) := by
  rw [shapeCast_apply _ shapeCasts_S100000x1_S100000 (ix1 i) (ix2 i (0 : Fin 1)) (by
      rw [Shape.rowMajor_val_two, Shape.rowMajor_val_one]
      show i.val * 1 + 0 = i.val
      omega),
    Cert.LibCols.slice_cols_apply (R := 100000) (C := 9) (C' := 1) 8 (aggAug X EI) slices_S100000x9_S100000x1_0_8 i (0 : Fin 1)
      (by decide)]
  have h8 : (⟨8 + ((0 : Fin 1)).val, by decide⟩ : Fin 9) = ⟨8, by decide⟩ := rfl
  rw [h8, cnt_apply]

/-- The host quotient at an index is the quotient of the elements. -/
theorem hostDivf_apply {s : Shape} {φ : FTy} (a b : FVec Ideal s φ) (j : s.Idx) :
    Host.divf a b j = Ideal.div (a j) (b j) := rfl

/-- The reciprocal-degree column at row i: one over the degree. -/
theorem invCnt_apply (X : FVec Ideal S100000x8 .f32) (EI : IVec S2x1600000 32) (i : Fin 100000) :
    invCnt X EI (ix2 i (0 : Fin 1)) = Ideal.div 1 (Cert.Sage.deg (inE EI) i) := by
  unfold invCnt
  rw [Cert.LibRowwise.shapeCast_a_a1_apply (a := 100000) _ shapeCasts_S100000_S100000x1 i (0 : Fin 1),
    hostDivf_apply, ones_apply, maximumf_apply, cntVec_apply, ones_apply, Cert.Sage.deg]

/-! ## The weights and biases -/

/-- A transposed layer-one weight at (k, q): the weight at (q, k). -/
theorem tr1_apply (W : FVec Ideal S64x8 .f32) (k : Fin 8) (q : Fin 64) : tr1 W (ix2 k q) = W (ix2 q k) := by
  unfold tr1
  exact transpose_apply [1, 0] W transposes_S64x8_S8x64_1_0 (ix2 k q) (ix2 q k) (fun b => by
    match b with
    | ⟨0, _⟩ => rfl
    | ⟨1, _⟩ => rfl)

/-- A transposed layer-two weight at (q, j): the weight at (j, q). -/
theorem tr2_apply (W : FVec Ideal S32x64 .f32) (q : Fin 64) (j : Fin 32) : tr2 W (ix2 q j) = W (ix2 j q) := by
  unfold tr2
  exact transpose_apply [1, 0] W transposes_S32x64_S64x32_1_0 (ix2 q j) (ix2 j q) (fun b => by
    match b with
    | ⟨0, _⟩ => rfl
    | ⟨1, _⟩ => rfl)

/-- The layer-one bias row at (0, q): the bias at q. -/
theorem row1_apply (b : FVec Ideal S64 .f32) (q : Fin 64) : row1 b (ix2 (0 : Fin 1) q) = b (ix1 q) := by
  unfold row1
  exact shapeCast_apply b shapeCasts_S64_S1x64 (ix2 (0 : Fin 1) q) (ix1 q) (by
    rw [Shape.rowMajor_val_two, Shape.rowMajor_val_one]
    show q.val = 0 * 64 + q.val
    omega)

/-- The layer-two bias row at (0, j): the bias at j. -/
theorem row2_apply (b : FVec Ideal S32 .f32) (j : Fin 32) : row2 b (ix2 (0 : Fin 1) j) = b (ix1 j) := by
  unfold row2
  exact shapeCast_apply b shapeCasts_S32_S1x32 (ix2 (0 : Fin 1) j) (ix1 j) (by
    rw [Shape.rowMajor_val_two, Shape.rowMajor_val_one]
    show j.val = 0 * 32 + j.val
    omega)

/-! ## The hidden features -/

/-- The first launch's hidden features are the network's, in the reciprocal-first arrangement. -/
theorem hid_eq (X : FVec Ideal S100000x8 .f32) (EI : IVec S2x1600000 32) (A2 A3 : FVec Ideal S64x8 .f32)
    (A4 : FVec Ideal S64 .f32) (i : Fin 100000) (q : Fin 64) :
    hid (agg1 X EI) X (invCnt X EI) (tr1 A2) (tr1 A3) (row1 A4) i q
      = Cert.Sage.hidK (inE EI) (src EI) (fun i k => X (ix2 i k)) (fun q k => A2 (ix2 q k)) (fun q k => A3 (ix2 q k))
          (fun q => A4 (ix1 q)) i q := by
  have h1 : ∀ k : Fin 8, (agg1 X EI (ix2 i k) * Ideal.div 1 (Cert.Sage.deg (inE EI) i)) * tr1 A2 (ix2 k q)
      = Cert.Sage.meanK (inE EI) (src EI) (fun i k => X (ix2 i k)) i k * A2 (ix2 q k) := fun k => by
    rw [agg1_apply, tr1_apply, Cert.Sage.meanK]
  have h2 : ∀ k : Fin 8, X (ix2 i k) * tr1 A3 (ix2 k q) = X (ix2 i k) * A3 (ix2 q k) := fun k => by
    rw [tr1_apply]
  have hs1 : (∑ k : Fin 8, (agg1 X EI (ix2 i k) * Ideal.div 1 (Cert.Sage.deg (inE EI) i)) * tr1 A2 (ix2 k q))
      = ∑ k : Fin 8, Cert.Sage.meanK (inE EI) (src EI) (fun i k => X (ix2 i k)) i k * A2 (ix2 q k) :=
    Finset.sum_congr rfl fun k _ => h1 k
  have hs2 : (∑ k : Fin 8, X (ix2 i k) * tr1 A3 (ix2 k q)) = ∑ k : Fin 8, X (ix2 i k) * A3 (ix2 q k) :=
    Finset.sum_congr rfl fun k _ => h2 k
  rw [KDefs.hid, Cert.Sage.hidK, invCnt_apply, row1_apply, hs1, hs2]

/-! ## The second aggregation -/

/-- The zero word read anywhere in the zero-filled array is zero. -/
theorem zeros32_apply (j : S100000x32.Idx) :
    broadcastInDim S100000x32 ![] bcast_S_S100000x32 (constant (F := Ideal) S_ .f32 0x00000000#32) j = 0 := by
  rw [broadcastInDim_apply ![] bcast_S_S100000x32 _ j ix0 (fun a => a.elim0), constant_apply]
  exact Ideal.ofBits_zero_f32

/-- The second aggregation is a row gather followed by a segment sum into rows. -/
theorem agg2_eq (P : FVec Ideal S100000x32 .f32) (EI : IVec S2x1600000 32) :
    agg2 P EI
      = Ideal.hostScatterAdd (Cert.LibSegment.rowScatterDims 100000 1600000 32 Facts₀.scatter_S100000x32_S1600000x1_S1600000x32_1_0_0_1_wf)
          (broadcastInDim S100000x32 ![] Facts₀.bcast_S_S100000x32 (constant (F := Ideal) S_ .f32 0x00000000#32))
          (Cert.Graph.dstIdx EI)
          (Host.gather (Cert.LibSegment.rowGatherDims 100000 1600000 32 Facts₀.gather_S100000x32_S1600000x1_S1600000x32_1_0_n_n_0_1_132_wf)
            P (Cert.Graph.srcIdx EI)) := rfl

/-- The second aggregation at (i, j): the sum over the edges landing on i of the source's entry. -/
theorem agg2_apply (P : FVec Ideal S100000x32 .f32) (EI : IVec S2x1600000 32) (i : Fin 100000) (j : Fin 32) :
    agg2 P EI (ix2 i j) = ∑ e ∈ inE EI i, P (ix2 (src EI e) j) := by
  rw [agg2_eq, Cert.LibSegment.rowScatterAdd_apply, zeros32_apply, zero_add]
  refine Finset.sum_congr rfl fun e _ => ?_
  rw [Cert.LibSegment.rowGather_apply (by decide)]

/-! ## The two launches read at an index -/

/-- The combine step at (i, j). -/
theorem comb_apply (A : S100000x32.Idx → EReal) (IC : S100000x1.Idx → EReal) (S : S100000x32.Idx → EReal)
    (i : Fin 100000) (j : Fin 32) : comb A IC S (ix2 i j) = A (ix2 i j) * IC (ix2 i (0 : Fin 1)) + S (ix2 i j) := rfl

/-- The neighbour projection at (n, j). -/
theorem proj_apply (A X : S100000x8.Idx → EReal) (IC : S100000x1.Idx → EReal) (W1 W1' : S8x64.Idx → EReal)
    (B1 : S1x64.Idx → EReal) (W2 : S64x32.Idx → EReal) (n : Fin 100000) (j : Fin 32) :
    proj A X IC W1 W1' B1 W2 (ix2 n j) = ∑ q : Fin 64, hid A X IC W1 W1' B1 n q * W2 (ix2 q j) := rfl

/-- The self term at (n, j). -/
theorem selfT_apply (A X : S100000x8.Idx → EReal) (IC : S100000x1.Idx → EReal) (W1 W1' : S8x64.Idx → EReal)
    (B1 : S1x64.Idx → EReal) (W2' : S64x32.Idx → EReal) (B2 : S1x32.Idx → EReal) (n : Fin 100000) (j : Fin 32) :
    selfT A X IC W1 W1' B1 W2' B2 (ix2 n j)
      = (∑ q : Fin 64, hid A X IC W1 W1' B1 n q * W2' (ix2 q j)) + B2 (ix2 (0 : Fin 1) j) := rfl

/-! ## The kernel's result read at a node and an output feature -/

/-- The kernel's result at (i, j), over the graph written with the two abbreviations above. -/
theorem kernelOut_at' (X : FVec Ideal S100000x8 .f32) (EI : IVec S2x1600000 32) (A2 A3 : FVec Ideal S64x8 .f32)
    (A4 : FVec Ideal S64 .f32) (A5 A6 : FVec Ideal S32x64 .f32) (A7 : FVec Ideal S32 .f32) (i : Fin 100000) (j : Fin 32) :
    kernelOut X EI A2 A3 A4 A5 A6 A7 (ix2 i j)
      = Cert.Sage.outK (inE EI) (src EI) (fun i k => X (ix2 i k)) (fun q k => A2 (ix2 q k)) (fun q k => A3 (ix2 q k))
          (fun q => A4 (ix1 q)) (fun j q => A5 (ix2 j q)) (fun j q => A6 (ix2 j q)) (fun j => A7 (ix1 j)) i j := by
  have hP : ∀ n : Fin 100000, proj (agg1 X EI) X (invCnt X EI) (tr1 A2) (tr1 A3) (row1 A4) (tr2 A5) (ix2 n j)
      = ∑ q : Fin 64, Cert.Sage.hidK (inE EI) (src EI) (fun i k => X (ix2 i k)) (fun q k => A2 (ix2 q k))
          (fun q k => A3 (ix2 q k)) (fun q => A4 (ix1 q)) n q * A5 (ix2 j q) := fun n => by
    rw [proj_apply]
    refine Finset.sum_congr rfl fun q _ => ?_
    rw [hid_eq, tr2_apply]
  have hA : (∑ e ∈ inE EI i, proj (agg1 X EI) X (invCnt X EI) (tr1 A2) (tr1 A3) (row1 A4) (tr2 A5) (ix2 (src EI e) j))
      = ∑ e ∈ inE EI i, ∑ q : Fin 64, Cert.Sage.hidK (inE EI) (src EI) (fun i k => X (ix2 i k)) (fun q k => A2 (ix2 q k))
          (fun q k => A3 (ix2 q k)) (fun q => A4 (ix1 q)) (src EI e) q * A5 (ix2 j q) :=
    Finset.sum_congr rfl fun e _ => hP (src EI e)
  have hS : selfT (agg1 X EI) X (invCnt X EI) (tr1 A2) (tr1 A3) (row1 A4) (tr2 A6) (row2 A7) (ix2 i j)
      = (∑ q : Fin 64, Cert.Sage.hidK (inE EI) (src EI) (fun i k => X (ix2 i k)) (fun q k => A2 (ix2 q k))
          (fun q k => A3 (ix2 q k)) (fun q => A4 (ix1 q)) i q * A6 (ix2 j q)) + A7 (ix1 j) := by
    have hq : (∑ q : Fin 64, hid (agg1 X EI) X (invCnt X EI) (tr1 A2) (tr1 A3) (row1 A4) i q * tr2 A6 (ix2 q j))
        = ∑ q : Fin 64, Cert.Sage.hidK (inE EI) (src EI) (fun i k => X (ix2 i k)) (fun q k => A2 (ix2 q k))
            (fun q k => A3 (ix2 q k)) (fun q => A4 (ix1 q)) i q * A6 (ix2 j q) :=
      Finset.sum_congr rfl fun q _ => by rw [hid_eq, tr2_apply]
    rw [selfT_apply, row2_apply, hq]
  rw [kernelOut, comb_apply, agg2_apply, invCnt_apply, hA, hS, Cert.Sage.outK]

/-- THE KERNEL'S RESULT READ AT (i, j): the two-layer network with the reciprocal first and the projection before the
    aggregation, over the graph of the edge list. -/
theorem kernelOut_at (X : FVec Ideal S100000x8 .f32) (EI : IVec S2x1600000 32) (A2 A3 : FVec Ideal S64x8 .f32)
    (A4 : FVec Ideal S64 .f32) (A5 A6 : FVec Ideal S32x64 .f32) (A7 : FVec Ideal S32 .f32) (i : Fin 100000) (j : Fin 32) :
    Cert.KernelIdeal.KTerm.kernelOut X EI A2 A3 A4 A5 A6 A7 (ix2 i j)
      = Cert.Sage.outK (fun i : Fin 100000 => Cert.LibSegment.landing (Cert.Graph.dstIdx EI) i)
          (fun e : Fin 1600000 => Cert.LibSegment.clampRow 100000 (by decide) (Cert.Graph.srcIdx EI (ix2 e (0 : Fin 1))))
          (fun i k => X (ix2 i k)) (fun q k => A2 (ix2 q k)) (fun q k => A3 (ix2 q k)) (fun q => A4 (ix1 q))
          (fun j q => A5 (ix2 j q)) (fun j q => A6 (ix2 j q)) (fun j => A7 (ix1 j)) i j :=
  kernelOut_at' X EI A2 A3 A4 A5 A6 A7 i j

end Cert.KernelIdeal.KIndex

end
-- ==== Proof.RefBridge.lean ====
/-
  The reference program read at an output index: a two-layer mean aggregation on a directed graph.

  The program is a chain of whole-array stages. Read at a coordinate, each stage is elementary:

  * the in-degree count: scatter-adding the constant one onto a zero vector at the destination indices gives, at node
    `i`, the sum of ones over the edges landing on `i`; floored at one it is the degree `deg`;
  * the aggregate: gathering the source rows of a table and scatter-adding them onto a zero table at the destination
    indices gives, at `(i, k)`, the sum over the edges landing on `i` of the table at the edge's (clamped) source row;
  * the mean: that sum divided by the degree;
  * a layer: the mean times the transposed neighbour weight, plus the bias, plus the node's own row times the
    transposed self weight; a product against a transposed `[out, in]` weight reads the weight at `(out, in)`;
  * between the layers the clip `max · 0`.

  Layer two repeats the same stages on the hidden features. Composed, the value at `(i, j)` is `Cert.Sage.outR` of the
  graph (`In i` the edges landing on `i`, `src e` the row an edge's source names) and the eight arguments read as
  functions of their coordinates.
-/
import proofs.«165062_j69286412419258_2_alg».proof.Proof.Gen.ReferenceIdeal.Read
import proofs.«165062_j69286412419258_2_alg».proof.Proof.SageSpec
import proofs.«165062_j69286412419258_2_alg».proof.Proof.Graph
import proofs.«165062_j69286412419258_2_alg».proof.Proof.LibSegment
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The two index arrays are the graph's -/

theorem v9_eq (EI : (⟨S2x1600000, .i32⟩ : BufTy).Contents (Elt Ideal)) :
    val_main_v9 (F := Ideal) EI = Cert.Graph.srcIdx EI := rfl
theorem v37_eq (EI : (⟨S2x1600000, .i32⟩ : BufTy).Contents (Elt Ideal)) :
    val_main_v37 (F := Ideal) EI = Cert.Graph.srcIdx EI := rfl
theorem v12_eq (EI : (⟨S2x1600000, .i32⟩ : BufTy).Contents (Elt Ideal)) :
    val_main_v12 (F := Ideal) EI = Cert.Graph.dstIdx EI := rfl
theorem v16_eq (EI : (⟨S2x1600000, .i32⟩ : BufTy).Contents (Elt Ideal)) :
    val_main_v16 (F := Ideal) EI = Cert.Graph.dstIdx EI := rfl
theorem v40_eq (EI : (⟨S2x1600000, .i32⟩ : BufTy).Contents (Elt Ideal)) :
    val_main_v40 (F := Ideal) EI = Cert.Graph.dstIdx EI := rfl
theorem v44_eq (EI : (⟨S2x1600000, .i32⟩ : BufTy).Contents (Elt Ideal)) :
    val_main_v44 (F := Ideal) EI = Cert.Graph.dstIdx EI := rfl

/-- The word `0x3F800000` is the real number one. -/
theorem one_f32 : Ideal.ofBits .f32 0x3F800000#32 = 1 := by simp [Ideal.ofBits, Ideal.ieee, -EReal.coe_mul]; norm_num

/-! ## The in-degree count -/

theorem v17_eq (EI : (⟨S2x1600000, .i32⟩ : BufTy).Contents (Elt Ideal)) :
    val_main_v17 (F := Ideal) EI
      = Ideal.hostScatterAdd (Cert.LibSegment.vecScatterDims 100000 1600000 scatter_S100000_S1600000x1_S1600000_n_0_0_1_wf)
          (val_main_v15 (F := Ideal)) (Cert.Graph.dstIdx EI) (val_main_v14 (F := Ideal)) := rfl

/-- Scatter-adding ones onto a zero vector at the destinations counts the edges landing on each node. -/
theorem count_at (EI : (⟨S2x1600000, .i32⟩ : BufTy).Contents (Elt Ideal)) (i : Fin 100000) :
    val_main_v17 (F := Ideal) EI (ix1 i) = ∑ _e ∈ Cert.LibSegment.landing (Cert.Graph.dstIdx EI) i, (1 : EReal) := by
  rw [v17_eq, Cert.LibSegment.vecScatterAdd_apply]
  rw [val_main_v15_apply, val_main_cst_2_apply, Ideal.ofBits_def, Ideal.ofBits_zero_f32, zero_add]
  refine Finset.sum_congr rfl fun e _ => ?_
  rw [val_main_v14_apply, val_main_cst_1_apply, Ideal.ofBits_def, one_f32]

/-- The graph as the formula sees it: the edges landing on a node. -/
abbrev In (EI : (⟨S2x1600000, .i32⟩ : BufTy).Contents (Elt Ideal)) (i : Fin 100000) : Finset (Fin 1600000) :=
  Cert.LibSegment.landing (Cert.Graph.dstIdx EI) i

/-- The graph as the formula sees it: the node an edge leaves from (the source word read signed and clamped). -/
abbrev src (EI : (⟨S2x1600000, .i32⟩ : BufTy).Contents (Elt Ideal)) (e : Fin 1600000) : Fin 100000 :=
  Cert.LibSegment.clampRow 100000 (by decide) (Cert.Graph.srcIdx EI (ix2 e (0 : Fin 1)))

/-- The count floored at one is the degree. -/
theorem deg_at (EI : (⟨S2x1600000, .i32⟩ : BufTy).Contents (Elt Ideal)) (i : Fin 100000) :
    val_main_v19 (F := Ideal) EI (ix1 i) = Cert.Sage.deg (In EI) i := by
  rw [val_main_v19_apply, count_at, val_main_v18_apply, val_main_cst_3_apply, Ideal.ofBits_def, one_f32, Ideal.maximumf_def]
  rfl

/-- The degree laid along the eight feature columns. -/
theorem v21_at (EI : (⟨S2x1600000, .i32⟩ : BufTy).Contents (Elt Ideal)) (i : Fin 100000) (k : Fin 8) :
    val_main_v21 (F := Ideal) EI (ix2 i k) = Cert.Sage.deg (In EI) i := by
  rw [val_main_v21_apply, val_main_v20_apply]
  have h : idx_main_v20 (idx_main_v21 (ix2 i k)) = ix1 i := funext fun a => Fin.ext (by match a with | ⟨0, _⟩ => rfl)
  rw [h, deg_at]

/-! ## Layer one: gather the sources' rows, sum them onto the destinations -/

theorem v10_eq (X : (⟨S100000x8, .f32⟩ : BufTy).Contents (Elt Ideal)) (EI : (⟨S2x1600000, .i32⟩ : BufTy).Contents (Elt Ideal)) :
    val_main_v10 (F := Ideal) X EI
      = Host.gather (Cert.LibSegment.rowGatherDims 100000 1600000 8 gather_S100000x8_S1600000x1_S1600000x8_1_0_n_n_0_1_18_wf)
          X (Cert.Graph.srcIdx EI) := rfl

theorem v13_eq (X : (⟨S100000x8, .f32⟩ : BufTy).Contents (Elt Ideal)) (EI : (⟨S2x1600000, .i32⟩ : BufTy).Contents (Elt Ideal)) :
    val_main_v13 (F := Ideal) X EI
      = Ideal.hostScatterAdd (Cert.LibSegment.rowScatterDims 100000 1600000 8 scatter_S100000x8_S1600000x1_S1600000x8_1_0_0_1_wf)
          (val_main_v11 (F := Ideal)) (Cert.Graph.dstIdx EI) (val_main_v10 (F := Ideal) X EI) := rfl

/-- The layer-one aggregate at node `i`, column `k`: the sum over the edges landing on `i` of the source's feature. -/
theorem agg1_at (X : (⟨S100000x8, .f32⟩ : BufTy).Contents (Elt Ideal)) (EI : (⟨S2x1600000, .i32⟩ : BufTy).Contents (Elt Ideal))
    (i : Fin 100000) (k : Fin 8) :
    val_main_v13 (F := Ideal) X EI (ix2 i k) = ∑ e ∈ In EI i, X (ix2 (src EI e) k) := by
  rw [v13_eq, Cert.LibSegment.rowScatterAdd_apply]
  rw [val_main_v11_apply, val_main_cst_apply, Ideal.ofBits_def, Ideal.ofBits_zero_f32, zero_add]
  refine Finset.sum_congr rfl fun e _ => ?_
  rw [v10_eq, Cert.LibSegment.rowGather_apply (by decide)]

/-- The layer-one neighbour mean. -/
theorem mean_at (X : (⟨S100000x8, .f32⟩ : BufTy).Contents (Elt Ideal)) (EI : (⟨S2x1600000, .i32⟩ : BufTy).Contents (Elt Ideal))
    (i : Fin 100000) (k : Fin 8) :
    val_main_v22 (F := Ideal) X EI (ix2 i k) = Cert.Sage.meanR (In EI) (src EI) (fun i k => X (ix2 i k)) i k := by
  rw [val_main_v22_apply, agg1_at, v21_at, Ideal.hostDivf_def]
  rfl

/-! ## Layer one: the two projections, the bias, and the clip at zero -/

theorem l24 (i : Fin 100000) (q : Fin 64) (k : Fin 8) : lidx_main_v24 (ix2 i q) k = ix2 i k :=
  funext fun a => Fin.ext (by match a with | ⟨0, _⟩ => rfl | ⟨1, _⟩ => rfl)
theorem r24 (i : Fin 100000) (q : Fin 64) (k : Fin 8) : idx_main_v23 (ridx_main_v24 (ix2 i q) k) = ix2 q k :=
  funext fun a => Fin.ext (by match a with | ⟨0, _⟩ => rfl | ⟨1, _⟩ => rfl)
theorem l29 (i : Fin 100000) (q : Fin 64) (k : Fin 8) : lidx_main_v29 (ix2 i q) k = ix2 i k :=
  funext fun a => Fin.ext (by match a with | ⟨0, _⟩ => rfl | ⟨1, _⟩ => rfl)
theorem r29 (i : Fin 100000) (q : Fin 64) (k : Fin 8) : idx_main_v28 (ridx_main_v29 (ix2 i q) k) = ix2 q k :=
  funext fun a => Fin.ext (by match a with | ⟨0, _⟩ => rfl | ⟨1, _⟩ => rfl)
theorem b26 (i : Fin 100000) (q : Fin 64) : idx_main_v25 (idx_main_v26 (ix2 i q)) = ix1 q :=
  funext fun a => Fin.ext (by match a with | ⟨0, _⟩ => rfl)

/-- The hidden features: the mean projected by the (transposed) neighbour weight, plus the bias, plus the node's own
    features projected by the (transposed) self weight, clipped below at zero. -/
theorem hid_at (X : (⟨S100000x8, .f32⟩ : BufTy).Contents (Elt Ideal)) (EI : (⟨S2x1600000, .i32⟩ : BufTy).Contents (Elt Ideal))
    (A2 A3 : (⟨S64x8, .f32⟩ : BufTy).Contents (Elt Ideal)) (A4 : (⟨S64, .f32⟩ : BufTy).Contents (Elt Ideal))
    (i : Fin 100000) (q : Fin 64) :
    val_main_v31 (F := Ideal) X EI A2 A3 A4 (ix2 i q)
      = Cert.Sage.hidR (In EI) (src EI) (fun i k => X (ix2 i k)) (fun q k => A2 (ix2 q k)) (fun q k => A3 (ix2 q k))
          (fun q => A4 (ix1 q)) i q := by
  rw [val_main_v31_apply, val_main_v30_apply, val_main_v27_apply, val_main_v24_apply, val_main_v29_apply,
    val_main_v26_apply, val_main_v25_apply, b26, val_main_call0_v0_apply, val_main_call0_cst_apply, Ideal.ofBits_def,
    Ideal.ofBits_zero_f32]
  simp only [Ideal.addf_def, Ideal.maximumf_def, l24, l29, val_main_v23_apply, val_main_v28_apply, r24, r29, mean_at]
  rfl

/-! ## Layer two: the same aggregation, of the hidden features -/

theorem v38_eq (X : (⟨S100000x8, .f32⟩ : BufTy).Contents (Elt Ideal)) (EI : (⟨S2x1600000, .i32⟩ : BufTy).Contents (Elt Ideal))
    (A2 A3 : (⟨S64x8, .f32⟩ : BufTy).Contents (Elt Ideal)) (A4 : (⟨S64, .f32⟩ : BufTy).Contents (Elt Ideal)) :
    val_main_v38 (F := Ideal) X EI A2 A3 A4
      = Host.gather (Cert.LibSegment.rowGatherDims 100000 1600000 64 gather_S100000x64_S1600000x1_S1600000x64_1_0_n_n_0_1_164_wf)
          (val_main_v31 (F := Ideal) X EI A2 A3 A4) (Cert.Graph.srcIdx EI) := rfl

theorem v41_eq (X : (⟨S100000x8, .f32⟩ : BufTy).Contents (Elt Ideal)) (EI : (⟨S2x1600000, .i32⟩ : BufTy).Contents (Elt Ideal))
    (A2 A3 : (⟨S64x8, .f32⟩ : BufTy).Contents (Elt Ideal)) (A4 : (⟨S64, .f32⟩ : BufTy).Contents (Elt Ideal)) :
    val_main_v41 (F := Ideal) X EI A2 A3 A4
      = Ideal.hostScatterAdd (Cert.LibSegment.rowScatterDims 100000 1600000 64 scatter_S100000x64_S1600000x1_S1600000x64_1_0_0_1_wf)
          (val_main_v39 (F := Ideal)) (Cert.Graph.dstIdx EI) (val_main_v38 (F := Ideal) X EI A2 A3 A4) := rfl

/-- The layer-two aggregate at node `i`, column `q`: the sum over the edges landing on `i` of the source's hidden feature. -/
theorem agg2_at (X : (⟨S100000x8, .f32⟩ : BufTy).Contents (Elt Ideal)) (EI : (⟨S2x1600000, .i32⟩ : BufTy).Contents (Elt Ideal))
    (A2 A3 : (⟨S64x8, .f32⟩ : BufTy).Contents (Elt Ideal)) (A4 : (⟨S64, .f32⟩ : BufTy).Contents (Elt Ideal))
    (i : Fin 100000) (q : Fin 64) :
    val_main_v41 (F := Ideal) X EI A2 A3 A4 (ix2 i q)
      = ∑ e ∈ In EI i, Cert.Sage.hidR (In EI) (src EI) (fun i k => X (ix2 i k)) (fun q k => A2 (ix2 q k))
          (fun q k => A3 (ix2 q k)) (fun q => A4 (ix1 q)) (src EI e) q := by
  rw [v41_eq, Cert.LibSegment.rowScatterAdd_apply]
  rw [val_main_v39_apply, val_main_cst_6_apply, Ideal.ofBits_def, Ideal.ofBits_zero_f32, zero_add]
  refine Finset.sum_congr rfl fun e _ => ?_
  rw [v38_eq, Cert.LibSegment.rowGather_apply (by decide), hid_at]

theorem v45_eq (EI : (⟨S2x1600000, .i32⟩ : BufTy).Contents (Elt Ideal)) :
    val_main_v45 (F := Ideal) EI
      = Ideal.hostScatterAdd (Cert.LibSegment.vecScatterDims 100000 1600000 scatter_S100000_S1600000x1_S1600000_n_0_0_1_wf)
          (val_main_v43 (F := Ideal)) (Cert.Graph.dstIdx EI) (val_main_v42 (F := Ideal)) := rfl

/-- Layer two counts the landing edges again. -/
theorem count2_at (EI : (⟨S2x1600000, .i32⟩ : BufTy).Contents (Elt Ideal)) (i : Fin 100000) :
    val_main_v45 (F := Ideal) EI (ix1 i) = ∑ _e ∈ In EI i, (1 : EReal) := by
  rw [v45_eq, Cert.LibSegment.vecScatterAdd_apply]
  rw [val_main_v43_apply, val_main_cst_8_apply, Ideal.ofBits_def, Ideal.ofBits_zero_f32, zero_add]
  refine Finset.sum_congr rfl fun e _ => ?_
  rw [val_main_v42_apply, val_main_cst_7_apply, Ideal.ofBits_def, one_f32]

theorem deg2_at (EI : (⟨S2x1600000, .i32⟩ : BufTy).Contents (Elt Ideal)) (i : Fin 100000) :
    val_main_v47 (F := Ideal) EI (ix1 i) = Cert.Sage.deg (In EI) i := by
  rw [val_main_v47_apply, count2_at, val_main_v46_apply, val_main_cst_9_apply, Ideal.ofBits_def, one_f32, Ideal.maximumf_def]
  rfl

/-- The degree laid along the sixty-four hidden columns. -/
theorem v49_at (EI : (⟨S2x1600000, .i32⟩ : BufTy).Contents (Elt Ideal)) (i : Fin 100000) (q : Fin 64) :
    val_main_v49 (F := Ideal) EI (ix2 i q) = Cert.Sage.deg (In EI) i := by
  rw [val_main_v49_apply, val_main_v48_apply]
  have h : idx_main_v48 (idx_main_v49 (ix2 i q)) = ix1 i := funext fun a => Fin.ext (by match a with | ⟨0, _⟩ => rfl)
  rw [h, deg2_at]

/-- The layer-two neighbour mean of the hidden features. -/
theorem mean2_at (X : (⟨S100000x8, .f32⟩ : BufTy).Contents (Elt Ideal)) (EI : (⟨S2x1600000, .i32⟩ : BufTy).Contents (Elt Ideal))
    (A2 A3 : (⟨S64x8, .f32⟩ : BufTy).Contents (Elt Ideal)) (A4 : (⟨S64, .f32⟩ : BufTy).Contents (Elt Ideal))
    (i : Fin 100000) (q : Fin 64) :
    val_main_v50 (F := Ideal) X EI A2 A3 A4 (ix2 i q)
      = Ideal.div (∑ e ∈ In EI i, Cert.Sage.hidR (In EI) (src EI) (fun i k => X (ix2 i k)) (fun q k => A2 (ix2 q k))
          (fun q k => A3 (ix2 q k)) (fun q => A4 (ix1 q)) (src EI e) q) (Cert.Sage.deg (In EI) i) := by
  rw [val_main_v50_apply, agg2_at, v49_at, Ideal.hostDivf_def]

theorem l52 (i : Fin 100000) (j : Fin 32) (q : Fin 64) : lidx_main_v52 (ix2 i j) q = ix2 i q :=
  funext fun a => Fin.ext (by match a with | ⟨0, _⟩ => rfl | ⟨1, _⟩ => rfl)
theorem r52 (i : Fin 100000) (j : Fin 32) (q : Fin 64) : idx_main_v51 (ridx_main_v52 (ix2 i j) q) = ix2 j q :=
  funext fun a => Fin.ext (by match a with | ⟨0, _⟩ => rfl | ⟨1, _⟩ => rfl)
theorem l57 (i : Fin 100000) (j : Fin 32) (q : Fin 64) : lidx_main_v57 (ix2 i j) q = ix2 i q :=
  funext fun a => Fin.ext (by match a with | ⟨0, _⟩ => rfl | ⟨1, _⟩ => rfl)
theorem r57 (i : Fin 100000) (j : Fin 32) (q : Fin 64) : idx_main_v56 (ridx_main_v57 (ix2 i j) q) = ix2 j q :=
  funext fun a => Fin.ext (by match a with | ⟨0, _⟩ => rfl | ⟨1, _⟩ => rfl)
theorem b54 (i : Fin 100000) (j : Fin 32) : idx_main_v53 (idx_main_v54 (ix2 i j)) = ix1 j :=
  funext fun a => Fin.ext (by match a with | ⟨0, _⟩ => rfl)

/-- THE REFERENCE READ AT `(i, j)`: the two-layer formula with aggregation before projection. -/
theorem ref_at (X : (⟨S100000x8, .f32⟩ : BufTy).Contents (Elt Ideal)) (EI : (⟨S2x1600000, .i32⟩ : BufTy).Contents (Elt Ideal))
    (A2 A3 : (⟨S64x8, .f32⟩ : BufTy).Contents (Elt Ideal)) (A4 : (⟨S64, .f32⟩ : BufTy).Contents (Elt Ideal))
    (A5 A6 : (⟨S32x64, .f32⟩ : BufTy).Contents (Elt Ideal)) (A7 : (⟨S32, .f32⟩ : BufTy).Contents (Elt Ideal))
    (i : Fin 100000) (j : Fin 32) :
    Cert.ReferenceIdeal.Read.val_main_v58 (F := Ideal) X EI A2 A3 A4 A5 A6 A7 (ix2 i j)
      = Cert.Sage.outR (fun i : Fin 100000 => Cert.LibSegment.landing (Cert.Graph.dstIdx EI) i)
          (fun e : Fin 1600000 => Cert.LibSegment.clampRow 100000 (by decide) (Cert.Graph.srcIdx EI (ix2 e (0 : Fin 1))))
          (fun i k => X (ix2 i k)) (fun q k => A2 (ix2 q k)) (fun q k => A3 (ix2 q k)) (fun q => A4 (ix1 q))
          (fun j q => A5 (ix2 j q)) (fun j q => A6 (ix2 j q)) (fun j => A7 (ix1 j)) i j := by
  rw [val_main_v58_apply, val_main_v55_apply, val_main_v52_apply, val_main_v57_apply, val_main_v54_apply,
    val_main_v53_apply, b54]
  simp only [Ideal.addf_def, l52, l57, val_main_v51_apply, val_main_v56_apply, r52, r57, mean2_at, hid_at]
  rfl

end Cert.ReferenceIdeal.RefValue

end
-- ==== Proof.lean ====
/-
  A two-layer mean-aggregation graph network (GraphSAGE with mean aggregation) on 100000 nodes and 1600000 directed
  edges: a kernel against its plain reference, equal on the extended reals for finite inputs.

  Both programs read the edge list the same way: an edge's source is its entry of row 0 (a negative one wrapped once,
  then clamped into the node range, as a gather reads it), and it lands on the node its entry of row 1 names (read
  signed, dropped when outside the node range, as a scatter reads it).  Per layer a node's output is
  `(mean over incoming edges of the source's features) · Wlᵀ + b + (own features) · Wrᵀ`, with `max · 0` between the
  layers; the mean divides by the number of incoming edges floored at one.

  The reference divides the neighbour sum by that degree, and in layer two sums the 64 hidden features over the
  incoming edges before projecting them to 32.  The kernel appends a column of ones to the features so that ONE
  gather-and-sum gives both the neighbour sums and the degree, multiplies by the reciprocal of the degree, computes the
  hidden features and BOTH layer-two projections in one launch (never storing the hidden features), sums the already
  projected 32 features over the incoming edges, and in a second launch scales that sum and adds the self term.

  The two agree because, on real numbers, a product distributes over a finite sum: projecting then summing is summing
  then projecting, and scaling a sum by the reciprocal of a non-zero real is dividing it.  On the extended reals this
  needs every quantity to be a real number, which is what the precondition (all float inputs finite) provides: the
  hidden features are then real, being sums, products and maxima of reals.  Format changes are the identity on the
  extended reals, and the vector unit's matrix product into a zero accumulator is the host's contraction.
-/
import proofs.«165062_j69286412419258_2_alg».proof.Defs
import proofs.«165062_j69286412419258_2_alg».proof.Proof.Gen.Kernel
import proofs.«165062_j69286412419258_2_alg».proof.Proof.Gen.Kernel.Skeleton
import proofs.«165062_j69286412419258_2_alg».proof.Proof.Gen.Kernel.Launch
import proofs.«165062_j69286412419258_2_alg».proof.Proof.Gen.Kernel.Points
import proofs.«165062_j69286412419258_2_alg».proof.Proof.Gen.Kernel.Frame
import proofs.«165062_j69286412419258_2_alg».proof.Proof.Gen.KernelIdeal
import proofs.«165062_j69286412419258_2_alg».proof.Proof.Gen.KernelIdeal.Skeleton
import proofs.«165062_j69286412419258_2_alg».proof.Proof.Gen.KernelIdeal.Launch
import proofs.«165062_j69286412419258_2_alg».proof.Proof.Gen.KernelIdeal.Points
import proofs.«165062_j69286412419258_2_alg».proof.Proof.Gen.KernelIdeal.Frame
import proofs.«165062_j69286412419258_2_alg».proof.Proof.Gen.ReferenceIdeal
import proofs.«165062_j69286412419258_2_alg».proof.Proof.Gen.ReferenceIdeal.Run
import proofs.«165062_j69286412419258_2_alg».proof.Proof.Gen.ReferenceIdeal.Read
import proofs.«165062_j69286412419258_2_alg».proof.Proof.Gen.Pre_finite_inputs
import proofs.«165062_j69286412419258_2_alg».proof.Proof.SageLaw
import proofs.«165062_j69286412419258_2_alg».proof.Proof.FiniteInputs
import proofs.«165062_j69286412419258_2_alg».proof.Proof.KRun
import proofs.«165062_j69286412419258_2_alg».proof.Proof.KWalk
import proofs.«165062_j69286412419258_2_alg».proof.Proof.KIndex
import proofs.«165062_j69286412419258_2_alg».proof.Proof.RefBridge
import Idealize.ShloMosaic.Adequacy
import Idealize.ShloMosaic.Init

noncomputable section

namespace Cert.Proof

open Idealize.ShloMosaic Idealize.ShloMosaic.ValueIdx Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From arguments that agree and are finite, both idealized programs end with the same result: the kernel's is
    `outK` of the graph and the arguments, the reference's `outR`, and the two arrangements agree on real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W4 m ρ c (Proc.devRef .tc Cert.KernelIdeal.main_v41), Cert.KernelIdeal.KRun.run_result m ρ, ?_⟩
  refine (θ_run Cert.ReferenceIdeal.defs _ _).mono (fun r h c => ⟨(h c).1.trans ?_, (h c).2⟩)
    (Cert.ReferenceIdeal.Value.run (F := Ideal) m' ρ')
  obtain ⟨g0, g1, g2, g3, g4, g5, g6, g7⟩ := hagree c
  obtain ⟨r0, r2, r3, r4, r5, r6, r7⟩ := Cert.FiniteInputs.real_of_pre m hpre c
  show Cert.ReferenceIdeal.Value.res_main_v58 m' c = Cert.KernelIdeal.Gen.W4 m ρ c (Proc.devRef .tc Cert.KernelIdeal.main_v41)
  rw [Cert.ReferenceIdeal.Read.val_main_v58_eq, g0, g1, g2, g3, g4, g5, g6, g7, Cert.KernelIdeal.KWalk.result_eq m ρ c]
  funext idx
  obtain ⟨i, j, rfl⟩ : ∃ (i : Fin 100000) (j : Fin 32), idx = ix2 i j := ⟨idx 0, idx 1, eq_ix2 idx⟩
  rw [Cert.ReferenceIdeal.RefValue.ref_at, Cert.KernelIdeal.KIndex.kernelOut_at]
  exact (Cert.Sage.outK_eq_outR _ _ _ _ _ _ _ _ _ (fun i k => r0 (ix2 i k)) (fun q k => r2 (ix2 q k)) (fun q k => r3 (ix2 q k))
    (fun q => r4 (ix1 q)) (fun j q => r5 (ix2 j q)) (fun j q => r6 (ix2 j q)) (fun j => r7 (ix1 j)) i j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
